-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S2x128 : Shape := ⟨2, ![2, 128]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S2x128 .f32) (main_arg9 : FVec F S2 .f32) (main_v33 : IVec S_ 1) : IVec S_ 1 :=
  let main_v34 : FVec F S2x128 .f32 := Host.absf main_arg8
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S128x256 .f32) (main_arg6 : FVec F S128 .f32) (main_arg7 : FVec F S128x256 .f32) (main_arg8 : FVec F S2x128 .f32) (main_arg9 : FVec F S2 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x600000 32) (main_arg2 : FVec F S256x128 .f32) (main_arg3 : FVec F S256 .f32) (main_arg4 : FVec F S256x128 .f32) (main_arg5 : FVec F S128x256 .f32) (main_arg6 : FVec F S128 .f32) (main_arg7 : FVec F S128x256 .f32) (main_arg8 : FVec F S2x128 .f32) (main_arg9 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x600000 : Shape := ⟨2, ![2, 600000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S2x128 : Shape := ⟨2, ![2, 128]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩
abbrev S2000 : Shape := ⟨1, ![2000]⟩
abbrev S600000x256 : Shape := ⟨2, ![600000, 256]⟩
abbrev S1x128 : Shape := ⟨2, ![1, 128]⟩
abbrev S1x2 : Shape := ⟨2, ![1, 2]⟩
abbrev S50000x2 : Shape := ⟨2, ![50000, 2]⟩
abbrev S2000x2 : Shape := ⟨2, ![2000, 2]⟩

abbrev nBuf : Space → Nat
  | .hbm => 53
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S2x128, .f32⟩
  | .hbm, ⟨9, _⟩ => ⟨S2, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .f32⟩
  | .hbm, ⟨24, _⟩ => ⟨S50000x128, .f32⟩
  | .hbm, ⟨25, _⟩ => ⟨S600000x1, .i32⟩
  | .hbm, ⟨26, _⟩ => ⟨S50000x128, .f32⟩
  | .hbm, ⟨27, _⟩ => ⟨S_, .f32⟩
  | .hbm, ⟨28, _⟩ => ⟨S600000, .f32⟩
  | .hbm, ⟨29, _⟩ => ⟨S_, .f32⟩
  | .hbm, ⟨30, _⟩ => ⟨S50000, .f32⟩
  | .hbm, ⟨31, _⟩ => ⟨S600000x1, .i32⟩
  | .hbm, ⟨32, _⟩ => ⟨S50000, .f32⟩
  | .hbm, ⟨33, _⟩ => ⟨S50000x1, .f32⟩
  | .hbm, ⟨34, _⟩ => ⟨S1x256, .f32⟩
  | .hbm, ⟨35, _⟩ => ⟨S50000x256, .f32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000x256, .f32⟩
  | .hbm, ⟨45, _⟩ => ⟨S_, .f32⟩
  | .hbm, ⟨46, _⟩ => ⟨S50000x256, .f32⟩
  | .hbm, ⟨47, _⟩ => ⟨S600000x1, .i32⟩
  | .hbm, ⟨48, _⟩ => ⟨S50000x256, .f32⟩
  | .hbm, ⟨49, _⟩ => ⟨S1x128, .f32⟩
  | .hbm, ⟨50, _⟩ => ⟨S50000x128, .f32⟩
  | .hbm, ⟨51, _⟩ => ⟨S1x2, .f32⟩
  | .hbm, ⟨52, _⟩ => ⟨S50000x2, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S256x128, .f32⟩
  | .local _ .vmem, ⟨7, _⟩ => ⟨S1x256, .f32⟩
  | .local _ .vmem, ⟨8, _⟩ => ⟨S256x128, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x1, .f32⟩
  | .local _ .vmem, ⟨16, _⟩ => ⟨S2000x1, .f32⟩
  | .local _ .vmem, ⟨17, _⟩ => ⟨S128x256, .f32⟩
  | .local _ .vmem, ⟨18, _⟩ => ⟨S1x128, .f32⟩
  | .local _ .vmem, ⟨19, _⟩ => ⟨S128x256, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2x128, .f32⟩
  | .local _ .vmem, ⟨25, _⟩ => ⟨S1x2, .f32⟩
  | .local _ .vmem, ⟨26, _⟩ => ⟨S2000x2, .f32⟩
  | .local _ .vmem, ⟨27, _⟩ => ⟨S2000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  shapeCasts_S256_S1x256 : S256.ShapeCasts S1x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  shapeCasts_S128_S1x128 : S128.ShapeCasts S1x128
  shapeCasts_S2000x256_S2000x256 : S2000x256.ShapeCasts S2000x256
  inb_S128x256_S128x256_0_0 : ∀ a, (![0, 0] : Fin 2 → Nat) a + S128x256.size a ≤ S128x256.size a
  h_S128x256 : 0 < S128x256.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2_S1x2 : S2.ShapeCasts S1x2
  inb_S2x128_S2x128_0_0 : ∀ a, (![0, 0] : Fin 2 → Nat) a + S2x128.size a ≤ S2x128.size a
  h_S2x128 : 0 < S2x128.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  reduces_S2000x2_S2000 : S2000x2.Reduces [1] S2000
  broadcasts_S2000x1_S2000x2 : S2000x1.Broadcasts S2000x2
  inb_S2000x2_S2000x2_0_0 : ∀ a, (![0, 0] : Fin 2 → Nat) a + S2000x2.size a ≤ S2000x2.size a
  h_S2000x2 : 0 < S2000x2.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S2000x128_S256x128_S2000x256_1_1_0_0_n_n_wf : DotDims.WF S2000x128 S256x128 S2000x256 [1] [1] [0] [0] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S2000x256_S128x256_S2000x128_1_1_0_0_n_n_wf : DotDims.WF S2000x256 S128x256 S2000x128 [1] [1] [0] [0] [] []
  dot_S2000x128_S2x128_S2000x2_1_1_0_0_n_n_wf : DotDims.WF S2000x128 S2x128 S2000x2 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x256.size a ≤ S128x256.size a
  hwx1_5 : ∀ i : grid1.Coords, EltTy.bits .f32 = 32 ∨ (Rect.block (s := S128x256) S128x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2x128.size a ≤ S2x128.size a
  hwx2_1 : ∀ i : grid2.Coords, EltTy.bits .f32 = 32 ∨ (Rect.block (s := S2x128) S2x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2.size a ≤ S1x2.size a
  hwx2_2 : ∀ i : grid2.Coords, EltTy.bits .f32 = 32 ∨ (Rect.block (s := S1x2) S1x2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x2.size a ≤ S50000x2.size a
  hwx2_3 : ∀ i : grid2.Coords, EltTy.bits .f32 = 32 ∨ (Rect.block (s := S50000x2) S2000x2.size (cc2_transform_3 i) (hinb2_3 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2000x128_S256x128_S2000x256_1_1_0_0_n_n : DotDims S2000x128 S256x128 S2000x256 where
  lhsContracting := [1]
  rhsContracting := [1]
  lhsNonContracting := [0]
  rhsNonContracting := [0]
  lhsBatch := []
  rhsBatch := []
  wf := dot_S2000x128_S256x128_S2000x256_1_1_0_0_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S2000x256_S128x256_S2000x128_1_1_0_0_n_n : DotDims S2000x256 S128x256 S2000x128 where
  lhsContracting := [1]
  rhsContracting := [1]
  lhsNonContracting := [0]
  rhsNonContracting := [0]
  lhsBatch := []
  rhsBatch := []
  wf := dot_S2000x256_S128x256_S2000x128_1_1_0_0_n_n_wf
def dot_S2000x128_S2x128_S2000x2_1_1_0_0_n_n : DotDims S2000x128 S2x128 S2000x2 where
  lhsContracting := [1]
  rhsContracting := [1]
  lhsNonContracting := [0]
  rhsNonContracting := [0]
  lhsBatch := []
  rhsBatch := []
  wf := dot_S2000x128_S2x128_S2000x2_1_1_0_0_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v20) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v32) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S2x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S1x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S2000x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S2x128 : Shape := ⟨2, ![2, 128]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S600000x256 : Shape := ⟨2, ![600000, 256]⟩
abbrev S1x128 : Shape := ⟨2, ![1, 128]⟩
abbrev S128x2 : Shape := ⟨2, ![128, 2]⟩
abbrev S50000x2 : Shape := ⟨2, ![50000, 2]⟩
abbrev S1x2 : Shape := ⟨2, ![1, 2]⟩

abbrev nBuf : Space → Nat
  | .hbm => 122
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S2x128, .f32⟩
  | .hbm, ⟨9, _⟩ => ⟨S2, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .f32⟩
  | .hbm, ⟨24, _⟩ => ⟨S50000x128, .f32⟩
  | .hbm, ⟨25, _⟩ => ⟨S600000x1, .i32⟩
  | .hbm, ⟨26, _⟩ => ⟨S50000x128, .f32⟩
  | .hbm, ⟨27, _⟩ => ⟨S_, .f32⟩
  | .hbm, ⟨28, _⟩ => ⟨S600000, .f32⟩
  | .hbm, ⟨29, _⟩ => ⟨S_, .f32⟩
  | .hbm, ⟨30, _⟩ => ⟨S50000, .f32⟩
  | .hbm, ⟨31, _⟩ => ⟨S600000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S128x256, .f32⟩
  | .hbm, ⟨40, _⟩ => ⟨S50000x256, .f32⟩
  | .hbm, ⟨41, _⟩ => ⟨S1x256, .f32⟩
  | .hbm, ⟨42, _⟩ => ⟨S50000x256, .f32⟩
  | .hbm, ⟨43, _⟩ => ⟨S50000x256, .f32⟩
  | .hbm, ⟨44, _⟩ => ⟨S128x256, .f32⟩
  | .hbm, ⟨45, _⟩ => ⟨S50000x256, .f32⟩
  | .hbm, ⟨46, _⟩ => ⟨S50000x256, .f32⟩
  | .hbm, ⟨47, _⟩ => ⟨S50000x256, .f32⟩
  | .hbm, ⟨48, _⟩ => ⟨S_, .f32⟩
  | .hbm, ⟨49, _⟩ => ⟨S50000, .f32⟩
  | .hbm, ⟨50, _⟩ => ⟨S50000x1, .f32⟩
  | .hbm, ⟨51, _⟩ => ⟨S50000x1, .f32⟩
  | .hbm, ⟨52, _⟩ => ⟨S_, .f32⟩
  | .hbm, ⟨53, _⟩ => ⟨S50000x1, .f32⟩
  | .hbm, ⟨54, _⟩ => ⟨S50000x1, .f32⟩
  | .hbm, ⟨55, _⟩ => ⟨S50000x256, .f32⟩
  | .hbm, ⟨56, _⟩ => ⟨S50000x256, .f32⟩
  | .hbm, ⟨57, _⟩ => ⟨S_, .f32⟩
  | .hbm, ⟨58, _⟩ => ⟨S50000x256, .f32⟩
  | .hbm, ⟨59, _⟩ => ⟨S50000x256, .f32⟩
  | .hbm, ⟨60, _⟩ => ⟨S_, .i32⟩
  | .hbm, ⟨61, _⟩ => ⟨S600000, .i32⟩
  | .hbm, ⟨62, _⟩ => ⟨S600000, .i1⟩
  | .hbm, ⟨63, _⟩ => ⟨S_, .i32⟩
  | .hbm, ⟨64, _⟩ => ⟨S600000, .i32⟩
  | .hbm, ⟨65, _⟩ => ⟨S600000, .i32⟩
  | .hbm, ⟨66, _⟩ => ⟨S600000, .i32⟩
  | .hbm, ⟨67, _⟩ => ⟨S600000x1, .i32⟩
  | .hbm, ⟨68, _⟩ => ⟨S600000x256, .f32⟩
  | .hbm, ⟨69, _⟩ => ⟨S_, .f32⟩
  | .hbm, ⟨70, _⟩ => ⟨S50000x256, .f32⟩
  | .hbm, ⟨71, _⟩ => ⟨S600000x1, .i32⟩
  | .hbm, ⟨72, _⟩ => ⟨S50000x256, .f32⟩
  | .hbm, ⟨73, _⟩ => ⟨S_, .f32⟩
  | .hbm, ⟨74, _⟩ => ⟨S600000, .f32⟩
  | .hbm, ⟨75, _⟩ => ⟨S_, .f32⟩
  | .hbm, ⟨76, _⟩ => ⟨S50000, .f32⟩
  | .hbm, ⟨77, _⟩ => ⟨S600000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .f32⟩
  | .hbm, ⟨82, _⟩ => ⟨S50000x1, .f32⟩
  | .hbm, ⟨83, _⟩ => ⟨S50000x256, .f32⟩
  | .hbm, ⟨84, _⟩ => ⟨S50000x256, .f32⟩
  | .hbm, ⟨85, _⟩ => ⟨S256x128, .f32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S256x128, .f32⟩
  | .hbm, ⟨91, _⟩ => ⟨S50000x128, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S50000, .f32⟩
  | .hbm, ⟨96, _⟩ => ⟨S50000x1, .f32⟩
  | .hbm, ⟨97, _⟩ => ⟨S50000x1, .f32⟩
  | .hbm, ⟨98, _⟩ => ⟨S_, .f32⟩
  | .hbm, ⟨99, _⟩ => ⟨S50000x1, .f32⟩
  | .hbm, ⟨100, _⟩ => ⟨S50000x1, .f32⟩
  | .hbm, ⟨101, _⟩ => ⟨S50000x128, .f32⟩
  | .hbm, ⟨102, _⟩ => ⟨S50000x128, .f32⟩
  | .hbm, ⟨103, _⟩ => ⟨S128x2, .f32⟩
  | .hbm, ⟨104, _⟩ => ⟨S50000x2, .f32⟩
  | .hbm, ⟨105, _⟩ => ⟨S1x2, .f32⟩
  | .hbm, ⟨106, _⟩ => ⟨S50000x2, .f32⟩
  | .hbm, ⟨107, _⟩ => ⟨S50000x2, .f32⟩
  | .hbm, ⟨108, _⟩ => ⟨S_, .f32⟩
  | .hbm, ⟨109, _⟩ => ⟨S50000, .f32⟩
  | .hbm, ⟨110, _⟩ => ⟨S_, .f32⟩
  | .hbm, ⟨111, _⟩ => ⟨S50000, .f32⟩
  | .hbm, ⟨112, _⟩ => ⟨S50000, .f32⟩
  | .hbm, ⟨113, _⟩ => ⟨S50000x1, .f32⟩
  | .hbm, ⟨114, _⟩ => ⟨S50000x2, .f32⟩
  | .hbm, ⟨115, _⟩ => ⟨S50000x2, .f32⟩
  | .hbm, ⟨116, _⟩ => ⟨S50000x2, .f32⟩
  | .hbm, ⟨117, _⟩ => ⟨S_, .f32⟩
  | .hbm, ⟨118, _⟩ => ⟨S50000, .f32⟩
  | .hbm, ⟨119, _⟩ => ⟨S50000x1, .f32⟩
  | .hbm, ⟨120, _⟩ => ⟨S50000x2, .f32⟩
  | .hbm, ⟨121, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_v0 : Ref sig .tc := ⟨.hbm, 47, rfl⟩
abbrev main_call0_cst : Ref sig .tc := ⟨.hbm, 48, rfl⟩
abbrev main_call0_v1 : Ref sig .tc := ⟨.hbm, 49, rfl⟩
abbrev main_call0_v2 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call1_cst : Ref sig .tc := ⟨.hbm, 57, rfl⟩
abbrev main_call1_v0 : Ref sig .tc := ⟨.hbm, 58, rfl⟩
abbrev main_v36 : Ref sig .tc := ⟨.hbm, 59, rfl⟩
abbrev main_c_5 : Ref sig .tc := ⟨.hbm, 60, rfl⟩
abbrev main_v37 : Ref sig .tc := ⟨.hbm, 61, rfl⟩
abbrev main_v38 : Ref sig .tc := ⟨.hbm, 62, rfl⟩
abbrev main_c_6 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_8 : Ref sig .tc := ⟨.hbm, 73, rfl⟩
abbrev main_v47 : Ref sig .tc := ⟨.hbm, 74, rfl⟩
abbrev main_cst_9 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_10 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_call2_v0 : Ref sig .tc := ⟨.hbm, 93, rfl⟩
abbrev main_call2_cst : Ref sig .tc := ⟨.hbm, 94, rfl⟩
abbrev main_call2_v1 : Ref sig .tc := ⟨.hbm, 95, rfl⟩
abbrev main_call2_v2 : Ref sig .tc := ⟨.hbm, 96, rfl⟩
abbrev main_v64 : Ref sig .tc := ⟨.hbm, 97, rfl⟩
abbrev main_cst_11 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_12 : Ref sig .tc := ⟨.hbm, 108, rfl⟩
abbrev main_v74 : Ref sig .tc := ⟨.hbm, 109, rfl⟩
abbrev main_cst_13 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_14 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  h_S_ : 0 < S_.numel
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  transposes_S2x128_S128x2_1_0 : S2x128.Transposes [1, 0] S128x2
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  bcast_S50000x1_S50000x2_0_1 : S50000x1.BroadcastsInDim S50000x2 (![0, 1] : Fin 2 → Fin S50000x2.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x256_S50000x256_1_0_0_1_n_n_wf : DotDims.WF S50000x128 S128x256 S50000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S50000x256_S256x128_S50000x128_1_0_0_1_n_n_wf : DotDims.WF S50000x256 S256x128 S50000x128 [1] [0] [0] [1] [] []
  dot_S50000x128_S128x2_S50000x2_1_0_0_1_n_n_wf : DotDims.WF S50000x128 S128x2 S50000x2 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.RowMaps.lean ====
/-
  The mathematics of one node's row, as functions of finitely indexed families of extended reals.

  A graph-convolution layer maps a node's feature row `x`, the sum `a` of its in-neighbours' rows and the number
  `cnt` of those neighbours to the row
      t(c) = (Σ_k (a(k) / max(cnt, 1)) · Wl(c,k) + b(c)) + Σ_k x(k) · Wr(c,k)
  scaled to unit Euclidean length, `t(c) / max(sqrt(Σ_c t(c)²), tiny)`; the first layer then floors each entry at zero.
  The classifier maps a row `h` to `z(c) = Σ_k h(k) · W(c,k) + b(c)` and then to
  `exp(z(c) - max z) / Σ_c exp(z(c) - max z)`. Everything is over the extended reals with the exact operations; the
  four float literals are kept as their binary words.
-/
import Idealize.ShloMosaic.PureOps.Ideal
import Idealize.ShloMosaic.PureOps.Ideal.Laws

noncomputable section

namespace Cert.RowMaps

open Idealize.ShloMosaic

/-- The float 1.0. -/
abbrev one : EReal := Ideal.ofBits .f32 0x3F800000#32
/-- The float nearest 1e-12. -/
abbrev tiny : EReal := Ideal.ofBits .f32 0x2B8CBCCC#32
/-- The float 0.0. -/
abbrev zero : EReal := Ideal.ofBits .f32 0x00000000#32
/-- The float -inf. -/
abbrev negInf : EReal := Ideal.ofBits .f32 0xFF800000#32

/-- The affine part of a layer at one node: the neighbours' mean through `Wl`, plus the bias, plus the node's own
    row through `Wr`. -/
def lin {K N : ℕ} (a x : Fin K → EReal) (cnt : EReal) (Wl Wr : Fin N → Fin K → EReal) (b : Fin N → EReal)
    (c : Fin N) : EReal :=
  ((∑ k : Fin K, Ideal.div (a k) (max cnt one) * Wl c k) + b c) + ∑ k : Fin K, x k * Wr c k

/-- A row divided by its Euclidean length, the length floored at `tiny`. -/
def unitRow {N : ℕ} (t : Fin N → EReal) (c : Fin N) : EReal :=
  Ideal.div (t c) (max (Ideal.sqrt (∑ c' : Fin N, t c' * t c')) tiny)

/-- The second layer at one node. -/
def layer {K N : ℕ} (a x : Fin K → EReal) (cnt : EReal) (Wl Wr : Fin N → Fin K → EReal) (b : Fin N → EReal)
    (c : Fin N) : EReal :=
  unitRow (lin a x cnt Wl Wr b) c

/-- The first layer at one node: the same, floored at zero. -/
def layerPos {K N : ℕ} (a x : Fin K → EReal) (cnt : EReal) (Wl Wr : Fin N → Fin K → EReal) (b : Fin N → EReal)
    (c : Fin N) : EReal :=
  max (layer a x cnt Wl Wr b c) zero

/-- The classifier's logits at one node. -/
def logits {K N : ℕ} (h : Fin K → EReal) (W : Fin N → Fin K → EReal) (b : Fin N → EReal) (c : Fin N) : EReal :=
  (∑ k : Fin K, h k * W c k) + b c

/-- The softmax of a row. -/
def softmax {N : ℕ} (z : Fin N → EReal) (c : Fin N) : EReal :=
  Ideal.div (Ideal.exp (z c - Finset.univ.fold max negInf z))
    (∑ c' : Fin N, Ideal.exp (z c' - Finset.univ.fold max negInf z))

/-- The largest entry of a row is at least the value the maximum starts from. -/
theorem max_negInf_fold {N : ℕ} (z : Fin N → EReal) :
    max negInf (Finset.univ.fold max negInf z) = Finset.univ.fold max negInf z :=
  max_eq_right ((Finset.le_fold_max _).mpr (Or.inl le_rfl))

/-- The float zero is the extended real zero, so a sum started from it is the sum. -/
theorem zero_add_sum {N : ℕ} (f : Fin N → EReal) : zero + ∑ k : Fin N, f k = ∑ k : Fin N, f k := by
  show Ideal.ofBits .f32 0x00000000#32 + _ = _
  rw [Ideal.ofBits_zero_f32, zero_add]

end Cert.RowMaps

end
-- ==== Proof.LibBlockOps.lean ====
/-
  Vector operations of a kernel body on a block of rows, read at an entry, over the extended reals.

  A block is an array of `a` rows; the body spreads a column [a,1] across the columns of [a,b], gives a vector [a]
  a trailing unit axis, sums or maximises each row of [a,b], and multiplies a block [a,k] by the transpose of a
  matrix [n,k] on the matrix unit into a zero accumulator. Each of these, at the entry (p, c), depends only on row `p`
  of the block.
-/
import Idealize.ShloMosaic.PureOps.Ideal.Laws
import Idealize.ShloMosaic.Lib.ValueIdx
import Idealize.ShloMosaic.Lib.Pipeline.Value

noncomputable section

namespace Cert.BlockOps

open Idealize.ShloMosaic Idealize.ShloMosaic.ValueIdx

variable {α : Type}

/-- A column [a,1] spread across the columns of [a,b] reads, at (p, c), the column at row p. -/
theorem spreadCol_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] given a trailing unit axis reads, at (p, 0), the vector at p. -/
theorem trailingUnit_apply {a : ℕ} (v : (⟨1, ![a]⟩ : Shape).Idx → α) (h : (⟨1, ![a]⟩ : Shape).ShapeCasts ⟨2, ![a, 1]⟩)
    (p : Fin a) : shapeCast ⟨2, ![a, 1]⟩ v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

/-- The sum of each row of a block [a,b], read at row p, is the sum over the row's entries. -/
theorem rowSum_apply {a b : ℕ} (src : FVec Ideal ⟨2, ![a, b]⟩ .f32)
    (h : Shape.Reduces ⟨2, ![a, b]⟩ [(1 : Fin 2)] ⟨1, ![a]⟩) (hφ : FKind.Formats .f32)
    (hacc : (0x00000000#32 : BitVec 32) = 0x00000000#32) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun d => Fin.ext (by
      match d with
      | ⟨0, _⟩ => rfl
      | ⟨1, _⟩ => rfl)))

/-- The maximum of each row of a block [a,b], read at row p, is the maximum over the row's entries, started
    from the float -inf. -/
theorem rowMax_apply {a b : ℕ} (src : FVec Ideal ⟨2, ![a, b]⟩ .f32)
    (h : Shape.Reduces ⟨2, ![a, b]⟩ [(1 : Fin 2)] ⟨1, ![a]⟩) (hφ : FKind.Formats .f32)
    (hacc : (0xFF800000#32 : BitVec 32) = 0xFF800000#32) (p : Fin a) :
    multiReduction .maximumf [(1 : Fin 2)] ⟨1, ![a]⟩ src 0xFF800000#32 h hφ hacc (ix1 p)
      = Finset.univ.fold max (Ideal.ofBits .f32 0xFF800000#32) (fun k : Fin b => src (ix2 p k)) :=
  (Ideal.multiReduction_maximumf_single src 0xFF800000#32 h hφ hacc (ix1 p)).trans
    (congrArg (Finset.univ.fold max (Ideal.ofBits .f32 0xFF800000#32)) (funext fun k => congrArg src (funext fun d => Fin.ext (by
      match d with
      | ⟨0, _⟩ => rfl
      | ⟨1, _⟩ => rfl))))

end Cert.BlockOps

end
-- ==== Proof.Body0.lean ====
/-
  The first layer's kernel body on one block of 2000 node rows, read at an entry, over the extended reals: the
  stored block at (p, c) is the layer's row map (RowMaps.layerPos) of row p of the neighbour-sum block, row p of the
  feature block, the neighbour count of row p, the two weight matrices and the bias row — nothing of any other row.
-/
import proofs.«178967_j81664508166317_2_alg».proof.Proof.Gen.KernelIdeal.Skeleton
import proofs.«178967_j81664508166317_2_alg».proof.Proof.RowMaps
import proofs.«178967_j81664508166317_2_alg».proof.Proof.LibBlockOps
import Idealize.ShloMosaic.Lib.ValueLayout

noncomputable section

namespace Cert.KernelIdeal.Rows

open Cert.KernelIdeal Cert.KernelIdeal.Gen Cert.BlockOps
open Idealize.ShloMosaic Idealize.ShloMosaic.ValueIdx

/-- Row p of the left block against row c of the right matrix: both operands' second axis is contracted. -/
theorem mm0_lhs0 (i : S2000x256.Idx) (q : dot_S2000x128_S256x128_S2000x256_1_1_0_0_n_n.contr.Idx) : (dot_S2000x128_S256x128_S2000x256_1_1_0_0_n_n.lhsIdx i q 0).val = (i 0).val := by
  unfold DotDims.lhsIdx
  rw [dif_neg (show ¬(0 : Fin S2000x128.rank) ∈ dot_S2000x128_S256x128_S2000x256_1_1_0_0_n_n.lhsBatch by decide), dif_pos (show (0 : Fin S2000x128.rank) ∈ dot_S2000x128_S256x128_S2000x256_1_1_0_0_n_n.lhsNonContracting by decide)]
  rfl
theorem mm0_lhs1 (i : S2000x256.Idx) (q : dot_S2000x128_S256x128_S2000x256_1_1_0_0_n_n.contr.Idx) : (dot_S2000x128_S256x128_S2000x256_1_1_0_0_n_n.lhsIdx i q 1).val = (q ⟨0, by decide⟩).val :=
  dot_S2000x128_S256x128_S2000x256_1_1_0_0_n_n.lhsIdx_val_of_single rfl i q
theorem mm0_rhs0 (i : S2000x256.Idx) (q : dot_S2000x128_S256x128_S2000x256_1_1_0_0_n_n.contr.Idx) : (dot_S2000x128_S256x128_S2000x256_1_1_0_0_n_n.rhsIdx i q 0).val = (i 1).val := by
  unfold DotDims.rhsIdx
  rw [dif_neg (show ¬(0 : Fin S256x128.rank) ∈ dot_S2000x128_S256x128_S2000x256_1_1_0_0_n_n.rhsBatch by decide), dif_pos (show (0 : Fin S256x128.rank) ∈ dot_S2000x128_S256x128_S2000x256_1_1_0_0_n_n.rhsNonContracting by decide)]
  rfl
theorem mm0_rhs1 (i : S2000x256.Idx) (q : dot_S2000x128_S256x128_S2000x256_1_1_0_0_n_n.contr.Idx) : (dot_S2000x128_S256x128_S2000x256_1_1_0_0_n_n.rhsIdx i q 1).val = (q ⟨0, by decide⟩).val :=
  dot_S2000x128_S256x128_S2000x256_1_1_0_0_n_n.rhsIdx_val_of_single rfl i q

/-- The matrix unit's product into a zero accumulator, at the entry (p, c): the sum over k of the left block's
    (p, k) entry times the right matrix's (c, k) entry. -/
theorem mm0_apply (l : FVec Ideal S2000x128 .bf16) (r : FVec Ideal S256x128 .bf16) (p : Fin 2000) (c : Fin 256) :
    matmul dot_S2000x128_S256x128_S2000x256_1_1_0_0_n_n none l r (constant S2000x256 .f32 0x00000000#32) (ix2 p c) = ∑ k : Fin 128, l (ix2 p k) * r (ix2 c k) := by
  refine (Ideal.matmul_constant_zero_apply dot_S2000x128_S256x128_S2000x256_1_1_0_0_n_n none l r (ix2 p c)).trans ?_
  rw [← Equiv.sum_comp (ValueIdx.contrEquiv1 dot_S2000x128_S256x128_S2000x256_1_1_0_0_n_n 128 rfl rfl).symm]
  refine Finset.sum_congr rfl fun k _ => ?_
  have hk := ValueIdx.contrEquiv1_symm_val dot_S2000x128_S256x128_S2000x256_1_1_0_0_n_n 128 rfl rfl k
  have el : dot_S2000x128_S256x128_S2000x256_1_1_0_0_n_n.lhsIdx (ix2 p c) ((ValueIdx.contrEquiv1 dot_S2000x128_S256x128_S2000x256_1_1_0_0_n_n 128 rfl rfl).symm k) = ix2 p k := funext fun a => Fin.ext (by
    match a with
    | ⟨0, _⟩ => exact mm0_lhs0 _ _
    | ⟨1, _⟩ => exact (mm0_lhs1 _ _).trans hk)
  have er : dot_S2000x128_S256x128_S2000x256_1_1_0_0_n_n.rhsIdx (ix2 p c) ((ValueIdx.contrEquiv1 dot_S2000x128_S256x128_S2000x256_1_1_0_0_n_n 128 rfl rfl).symm k) = ix2 c k := funext fun a => Fin.ext (by
    match a with
    | ⟨0, _⟩ => exact mm0_rhs0 _ _
    | ⟨1, _⟩ => exact (mm0_rhs1 _ _).trans hk)
  rw [el, er]

/-- The square root of a vector, at an entry. -/
theorem mm0_sqrt_apply {s : Shape} (v : FVec Ideal s .f32) (i : s.Idx) : sqrt v i = Ideal.sqrt (v i) := rfl

/-- The sum of each row of the block, at row p (the shapes spelt as the body spells them). -/
theorem rowSum0 (src : FVec Ideal S2000x256 .f32) (h : S2000x256.Reduces [1] S2000) (hφ : FKind.Formats .f32)
    (hacc : (0x00000000#32 : BitVec 32) = 0x00000000#32) (p : Fin 2000) :
    multiReduction .add [1] S2000 src 0x00000000#32 h hφ hacc (ix1 p) = ∑ k : Fin 256, src (ix2 p k) :=
  rowSum_apply src h hφ hacc p

/-- What the body stores, at the entry (p, c). -/
theorem body0_apply (v0 : Vec Ideal S2000x1 .f32) (va vx : Vec Ideal S2000x128 .f32) (wl wr : Vec Ideal S256x128 .f32)
    (vb : Vec Ideal S1x256 .f32) (p : Fin 2000) (c : Fin 256) :
    k0_pay1 (F := Ideal) v0 va vx wl wr vb (ix2 p c)
      = RowMaps.layerPos (fun k : Fin 128 => va (ix2 p k)) (fun k : Fin 128 => vx (ix2 p k)) (v0 (ix2 p (0 : Fin 1)))
          (fun (c : Fin 256) (k : Fin 128) => wl (ix2 c k)) (fun (c : Fin 256) (k : Fin 128) => wr (ix2 c k)) (fun c : Fin 256 => vb (ix2 (0 : Fin 1) c)) c := by
  unfold k0_pay1 RowMaps.layerPos RowMaps.layer RowMaps.unitRow RowMaps.lin
  simp only [maximumf_apply, divf_apply, addf_apply, mulf_apply, broadcast_apply, truncf_apply, shapeCast_self, mm0_sqrt_apply,
    spreadCol_apply, trailingUnit_apply, mm0_apply, broadcastTo_1b_ab_apply]
  rw [rowSum0]
  simp only [maximumf_apply, divf_apply, addf_apply, mulf_apply, broadcast_apply, truncf_apply, shapeCast_self, mm0_sqrt_apply,
    spreadCol_apply, trailingUnit_apply, mm0_apply, broadcastTo_1b_ab_apply]
  rfl

end Cert.KernelIdeal.Rows

end
-- ==== Proof.Array0.lean ====
/-
  The first layer's result array after its region: every block the region writes back is the block of ONE function of
  the arrays the region finds — at node r and column c the layer's row map of row r of the neighbour sums, row r of the
  features, the neighbour count of r, the weights and the bias —, and the 25 blocks of 2000 rows tile the 50000 rows, so
  the array ends holding that function.
-/
import proofs.«178967_j81664508166317_2_alg».proof.Proof.Gen.KernelIdeal.Frame
import proofs.«178967_j81664508166317_2_alg».proof.Proof.Body0
import Idealize.ShloMosaic.Lib.Pipeline.Value

set_option maxRecDepth 16384

noncomputable section

namespace Cert.KernelIdeal.Rows

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

theorem idx0_0 : ∀ t : Fin cfg0.N, win0_0.index t (0 : Fin 2) = t.val ∧ win0_0.index t (1 : Fin 2) = 0 :=
  (by decide +kernel : ∀ t : Fin grid0.N, _)

/-- Window 0's block at point t is rows 2000·t … 2000·t + 1999 of its array. -/
theorem blk0_0 (c : Dev nD) (t : Fin cfg0.N) (p : Fin 2000) (k : Fin 128) (r : Fin 50000) (hr : r.val = t.val * 2000 + p.val) :
    iblk0 V c 0 t (ix2 p k) = V c main_arg0 (ix2 r k) := by
  have e := idx0_0 t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 2000 + 1 * p.val = r.val; have := e.1; omega
  | ⟨1, _⟩ => show win0_0.index t (1 : Fin 2) * 128 + 1 * k.val = k.val; have := e.2; omega

theorem idx0_1 : ∀ t : Fin cfg0.N, win0_1.index t (0 : Fin 2) = t.val ∧ win0_1.index t (1 : Fin 2) = 0 :=
  (by decide +kernel : ∀ t : Fin grid0.N, _)

/-- Window 1's block at point t is rows 2000·t … 2000·t + 1999 of its array. -/
theorem blk0_1 (c : Dev nD) (t : Fin cfg0.N) (p : Fin 2000) (k : Fin 128) (r : Fin 50000) (hr : r.val = t.val * 2000 + p.val) :
    iblk0 V c 1 t (ix2 p k) = V c main_v13 (ix2 r k) := by
  have e := idx0_1 t
  show V c main_v13 (((cfg0.win 1).blk t).view.emb (ix2 p k)) = V c main_v13 (ix2 r k)
  refine congrArg (V c main_v13) (funext fun a => Fin.ext ?_)
  match a with
  | ⟨0, _⟩ => show win0_1.index t (0 : Fin 2) * 2000 + 1 * p.val = r.val; have := e.1; omega
  | ⟨1, _⟩ => show win0_1.index t (1 : Fin 2) * 128 + 1 * k.val = k.val; have := e.2; omega

theorem idx0_2 : ∀ t : Fin cfg0.N, win0_2.index t (0 : Fin 2) = t.val ∧ win0_2.index t (1 : Fin 2) = 0 :=
  (by decide +kernel : ∀ t : Fin grid0.N, _)

/-- Window 2's block at point t is rows 2000·t … 2000·t + 1999 of its array. -/
theorem blk0_2 (c : Dev nD) (t : Fin cfg0.N) (p : Fin 2000) (k : Fin 1) (r : Fin 50000) (hr : r.val = t.val * 2000 + p.val) :
    iblk0 V c 2 t (ix2 p k) = V c main_v18 (ix2 r k) := by
  have e := idx0_2 t
  show V c main_v18 (((cfg0.win 2).blk t).view.emb (ix2 p k)) = V c main_v18 (ix2 r k)
  refine congrArg (V c main_v18) (funext fun a => Fin.ext ?_)
  match a with
  | ⟨0, _⟩ => show win0_2.index t (0 : Fin 2) * 2000 + 1 * p.val = r.val; have := e.1; omega
  | ⟨1, _⟩ => show win0_2.index t (1 : Fin 2) * 1 + 1 * k.val = k.val; have := e.2; omega

theorem idx0_3 : ∀ t : Fin cfg0.N, win0_3.index t (0 : Fin 2) = 0 ∧ win0_3.index t (1 : Fin 2) = 0 :=
  (by decide +kernel : ∀ t : Fin grid0.N, _)

/-- Window 3's block at every point is its whole array. -/
theorem blk0_3 (c : Dev nD) (t : Fin cfg0.N) (p : Fin 256) (k : Fin 128) :
    iblk0 V c 3 t (ix2 p k) = V c main_arg2 (ix2 p k) := by
  have e := idx0_3 t
  show V c main_arg2 (((cfg0.win 3).blk t).view.emb (ix2 p k)) = V c main_arg2 (ix2 p k)
  refine congrArg (V c main_arg2) (funext fun a => Fin.ext ?_)
  match a with
  | ⟨0, _⟩ => show win0_3.index t (0 : Fin 2) * 256 + 1 * p.val = p.val; have := e.1; omega
  | ⟨1, _⟩ => show win0_3.index t (1 : Fin 2) * 128 + 1 * k.val = k.val; have := e.2; omega

theorem idx0_4 : ∀ t : Fin cfg0.N, win0_4.index t (0 : Fin 2) = 0 ∧ win0_4.index t (1 : Fin 2) = 0 :=
  (by decide +kernel : ∀ t : Fin grid0.N, _)

/-- Window 4's block at every point is its whole array. -/
theorem blk0_4 (c : Dev nD) (t : Fin cfg0.N) (p : Fin 1) (k : Fin 256) :
    iblk0 V c 4 t (ix2 p k) = V c main_v19 (ix2 p k) := by
  have e := idx0_4 t
  show V c main_v19 (((cfg0.win 4).blk t).view.emb (ix2 p k)) = V c main_v19 (ix2 p k)
  refine congrArg (V c main_v19) (funext fun a => Fin.ext ?_)
  match a with
  | ⟨0, _⟩ => show win0_4.index t (0 : Fin 2) * 1 + 1 * p.val = p.val; have := e.1; omega
  | ⟨1, _⟩ => show win0_4.index t (1 : Fin 2) * 256 + 1 * k.val = k.val; have := e.2; omega

theorem idx0_5 : ∀ t : Fin cfg0.N, win0_5.index t (0 : Fin 2) = 0 ∧ win0_5.index t (1 : Fin 2) = 0 :=
  (by decide +kernel : ∀ t : Fin grid0.N, _)

/-- Window 5's block at every point is its whole array. -/
theorem blk0_5 (c : Dev nD) (t : Fin cfg0.N) (p : Fin 256) (k : Fin 128) :
    iblk0 V c 5 t (ix2 p k) = V c main_arg4 (ix2 p k) := by
  have e := idx0_5 t
  show V c main_arg4 (((cfg0.win 5).blk t).view.emb (ix2 p k)) = V c main_arg4 (ix2 p k)
  refine congrArg (V c main_arg4) (funext fun a => Fin.ext ?_)
  match a with
  | ⟨0, _⟩ => show win0_5.index t (0 : Fin 2) * 256 + 1 * p.val = p.val; have := e.1; omega
  | ⟨1, _⟩ => show win0_5.index t (1 : Fin 2) * 128 + 1 * k.val = k.val; have := e.2; omega

theorem idx0_6 : ∀ t : Fin cfg0.N, win0_6.index t (0 : Fin 2) = t.val ∧ win0_6.index t (1 : Fin 2) = 0 :=
  (by decide +kernel : ∀ t : Fin grid0.N, _)

/-- The layer at node r, column q, of the arrays the region finds. -/
def node0 (c : Dev nD) (r : Fin 50000) (q : Fin 256) : EReal :=
  RowMaps.layerPos (fun k : Fin 128 => V c main_v13 (ix2 r k)) (fun k : Fin 128 => V c main_arg0 (ix2 r k)) (V c main_v18 (ix2 r (0 : Fin 1)))
    (fun (c' : Fin 256) (k : Fin 128) => V c main_arg2 (ix2 c' k)) (fun (c' : Fin 256) (k : Fin 128) => V c main_arg4 (ix2 c' k))
    (fun c' : Fin 256 => V c main_v19 (ix2 (0 : Fin 1) c')) q

/-- The whole result array as one function of the arrays the region finds. -/
def whole0 (c : Dev nD) : S50000x256.Idx → EReal :=
  fun i => node0 V c ⟨(i 0).val, idx2_lt0 i⟩ ⟨(i 1).val, idx2_lt1 i⟩

theorem whole0_ix2 (c : Dev nD) (r : Fin 50000) (q : Fin 256) : whole0 V c (ix2 r q) = node0 V c r q := rfl

/-- What point t writes back is block t of that function. -/
theorem flushed0_eq (c : Dev nD) (t : Fin cfg0.N) :
    (dat0 V c).flushed 6 t = ((cfg0.win 6).blk t).view.read (Elt Ideal) (whole0 V c) := by
  show (cfg0.win 6).cut (grid0.coords t) ((dat0 V c).after 6 t) = _
  rw [after0_6]
  unfold out0_6
  rw [View.canon_unit_zero hz0]
  simp only [View.ld_unit_zero (S := S2000x128) hz0, View.ld_unit_zero (S := S2000x1) hz0, View.ld_unit_zero (S := S256x128) hz0,
    View.ld_unit_zero (S := S1x256) hz0]
  refine funext fun (j : S2000x256.Idx) => ?_
  obtain ⟨p, q, rfl⟩ : ∃ (p : Fin 2000) (q : Fin 256), j = ix2 p q := ⟨j 0, j 1, eq_ix2 j⟩
  have e := idx0_6 t
  have hN : t.val < 25 := t.isLt.trans_eq N_0
  obtain ⟨r, hr⟩ : ∃ r : Fin 50000, r.val = t.val * 2000 + p.val := ⟨⟨t.val * 2000 + p.val, by have := p.isLt; omega⟩, rfl⟩
  have hemb : ((cfg0.win 6).blk t).view.emb (ix2 p q) = ix2 r q := funext fun a => Fin.ext (by
    match a with
    | ⟨0, _⟩ => show win0_6.index t (0 : Fin 2) * 2000 + 1 * p.val = r.val; have := e.1; omega
    | ⟨1, _⟩ => show win0_6.index t (1 : Fin 2) * 256 + 1 * q.val = q.val; have := e.2; omega)
  show k0_pay1 (iblk0 V c 2 t) (iblk0 V c 1 t) (iblk0 V c 0 t) (iblk0 V c 3 t) (iblk0 V c 5 t) (iblk0 V c 4 t) (ix2 p q)
    = whole0 V c (((cfg0.win 6).blk t).view.emb (ix2 p q))
  rw [hemb, whole0_ix2]
  refine (body0_apply (iblk0 V c 2 t) (iblk0 V c 1 t) (iblk0 V c 0 t) (iblk0 V c 3 t) (iblk0 V c 5 t) (iblk0 V c 4 t) p q).trans ?_
  unfold node0
  simp only [blk0_0 V c t p _ r hr, blk0_1 V c t p _ r hr, blk0_2 V c t p _ r hr, blk0_3 V c t, blk0_4 V c t, blk0_5 V c t]

/-- An index of the array is in point t's block iff each coordinate is in the block's range on its axis. -/
theorem mem_blk0 (t : Fin cfg0.N) (i : S50000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v20).slice (win0_6.rect t)).set ↔ _
  rw [View.set_slice_whole, Rect.mem_set_unit]
  exact Iff.rfl

/-- Row r lies in the block of point r / 2000. -/
theorem cover0 (i : S50000x256.Idx) : ∃ t : Fin cfg0.N, (cfg0.win 6).flush t = true ∧ i ∈ ((cfg0.win 6).blk t).view.set := by
  have hi0 : (i 0).val < 50000 := (i 0).isLt
  have hi1 : (i 1).val < 256 := (i 1).isLt
  obtain ⟨t, ht⟩ : ∃ t : Fin cfg0.N, t.val = (i 0).val / 2000 :=
    ⟨⟨(i 0).val / 2000, (by omega : (i 0).val / 2000 < 25).trans_eq N_0.symm⟩, rfl⟩
  have e := idx0_6 t
  refine ⟨t, flush0_6 t, ?_⟩
  rw [mem_blk0]
  intro a
  match a with
  | ⟨0, _⟩ => show win0_6.index t (0 : Fin 2) * 2000 ≤ (i 0).val ∧ (i 0).val < win0_6.index t (0 : Fin 2) * 2000 + 2000; have := e.1; omega
  | ⟨1, _⟩ => show win0_6.index t (1 : Fin 2) * 256 ≤ (i 1).val ∧ (i 1).val < win0_6.index t (1 : Fin 2) * 256 + 256; have := e.2; omega

/-- The array after the region. -/
theorem final0 (c : Dev nD) : (dat0 V c).arrAt 6 cfg0.N = whole0 V c :=
  (dat0 V c).arrAt_eq_of_cover 6 (whole0 V c) (fun t _ => flushed0_eq V c t) cover0

end Cert.KernelIdeal.Rows

end
-- ==== Proof.Body1.lean ====
/-
  The second layer's kernel body on one block of 2000 node rows, read at an entry, over the extended reals: the
  stored block at (p, c) is the layer's row map (RowMaps.layer) of row p of the neighbour-sum block, row p of the
  feature block, the neighbour count of row p, the two weight matrices and the bias row — nothing of any other row.
-/
import proofs.«178967_j81664508166317_2_alg».proof.Proof.Gen.KernelIdeal.Skeleton
import proofs.«178967_j81664508166317_2_alg».proof.Proof.RowMaps
import proofs.«178967_j81664508166317_2_alg».proof.Proof.LibBlockOps
import Idealize.ShloMosaic.Lib.ValueLayout

noncomputable section

namespace Cert.KernelIdeal.Rows

open Cert.KernelIdeal Cert.KernelIdeal.Gen Cert.BlockOps
open Idealize.ShloMosaic Idealize.ShloMosaic.ValueIdx

/-- Row p of the left block against row c of the right matrix: both operands' second axis is contracted. -/
theorem mm1_lhs0 (i : S2000x128.Idx) (q : dot_S2000x256_S128x256_S2000x128_1_1_0_0_n_n.contr.Idx) : (dot_S2000x256_S128x256_S2000x128_1_1_0_0_n_n.lhsIdx i q 0).val = (i 0).val := by
  unfold DotDims.lhsIdx
  rw [dif_neg (show ¬(0 : Fin S2000x256.rank) ∈ dot_S2000x256_S128x256_S2000x128_1_1_0_0_n_n.lhsBatch by decide), dif_pos (show (0 : Fin S2000x256.rank) ∈ dot_S2000x256_S128x256_S2000x128_1_1_0_0_n_n.lhsNonContracting by decide)]
  rfl
theorem mm1_lhs1 (i : S2000x128.Idx) (q : dot_S2000x256_S128x256_S2000x128_1_1_0_0_n_n.contr.Idx) : (dot_S2000x256_S128x256_S2000x128_1_1_0_0_n_n.lhsIdx i q 1).val = (q ⟨0, by decide⟩).val :=
  dot_S2000x256_S128x256_S2000x128_1_1_0_0_n_n.lhsIdx_val_of_single rfl i q
theorem mm1_rhs0 (i : S2000x128.Idx) (q : dot_S2000x256_S128x256_S2000x128_1_1_0_0_n_n.contr.Idx) : (dot_S2000x256_S128x256_S2000x128_1_1_0_0_n_n.rhsIdx i q 0).val = (i 1).val := by
  unfold DotDims.rhsIdx
  rw [dif_neg (show ¬(0 : Fin S128x256.rank) ∈ dot_S2000x256_S128x256_S2000x128_1_1_0_0_n_n.rhsBatch by decide), dif_pos (show (0 : Fin S128x256.rank) ∈ dot_S2000x256_S128x256_S2000x128_1_1_0_0_n_n.rhsNonContracting by decide)]
  rfl
theorem mm1_rhs1 (i : S2000x128.Idx) (q : dot_S2000x256_S128x256_S2000x128_1_1_0_0_n_n.contr.Idx) : (dot_S2000x256_S128x256_S2000x128_1_1_0_0_n_n.rhsIdx i q 1).val = (q ⟨0, by decide⟩).val :=
  dot_S2000x256_S128x256_S2000x128_1_1_0_0_n_n.rhsIdx_val_of_single rfl i q

/-- The matrix unit's product into a zero accumulator, at the entry (p, c): the sum over k of the left block's
    (p, k) entry times the right matrix's (c, k) entry. -/
theorem mm1_apply (l : FVec Ideal S2000x256 .bf16) (r : FVec Ideal S128x256 .bf16) (p : Fin 2000) (c : Fin 128) :
    matmul dot_S2000x256_S128x256_S2000x128_1_1_0_0_n_n none l r (constant S2000x128 .f32 0x00000000#32) (ix2 p c) = ∑ k : Fin 256, l (ix2 p k) * r (ix2 c k) := by
  refine (Ideal.matmul_constant_zero_apply dot_S2000x256_S128x256_S2000x128_1_1_0_0_n_n none l r (ix2 p c)).trans ?_
  rw [← Equiv.sum_comp (ValueIdx.contrEquiv1 dot_S2000x256_S128x256_S2000x128_1_1_0_0_n_n 256 rfl rfl).symm]
  refine Finset.sum_congr rfl fun k _ => ?_
  have hk := ValueIdx.contrEquiv1_symm_val dot_S2000x256_S128x256_S2000x128_1_1_0_0_n_n 256 rfl rfl k
  have el : dot_S2000x256_S128x256_S2000x128_1_1_0_0_n_n.lhsIdx (ix2 p c) ((ValueIdx.contrEquiv1 dot_S2000x256_S128x256_S2000x128_1_1_0_0_n_n 256 rfl rfl).symm k) = ix2 p k := funext fun a => Fin.ext (by
    match a with
    | ⟨0, _⟩ => exact mm1_lhs0 _ _
    | ⟨1, _⟩ => exact (mm1_lhs1 _ _).trans hk)
  have er : dot_S2000x256_S128x256_S2000x128_1_1_0_0_n_n.rhsIdx (ix2 p c) ((ValueIdx.contrEquiv1 dot_S2000x256_S128x256_S2000x128_1_1_0_0_n_n 256 rfl rfl).symm k) = ix2 c k := funext fun a => Fin.ext (by
    match a with
    | ⟨0, _⟩ => exact mm1_rhs0 _ _
    | ⟨1, _⟩ => exact (mm1_rhs1 _ _).trans hk)
  rw [el, er]

/-- The square root of a vector, at an entry. -/
theorem mm1_sqrt_apply {s : Shape} (v : FVec Ideal s .f32) (i : s.Idx) : sqrt v i = Ideal.sqrt (v i) := rfl

/-- The sum of each row of the block, at row p (the shapes spelt as the body spells them). -/
theorem rowSum1 (src : FVec Ideal S2000x128 .f32) (h : S2000x128.Reduces [1] S2000) (hφ : FKind.Formats .f32)
    (hacc : (0x00000000#32 : BitVec 32) = 0x00000000#32) (p : Fin 2000) :
    multiReduction .add [1] S2000 src 0x00000000#32 h hφ hacc (ix1 p) = ∑ k : Fin 128, src (ix2 p k) :=
  rowSum_apply src h hφ hacc p

/-- What the body stores, at the entry (p, c). -/
theorem body1_apply (v0 : Vec Ideal S2000x1 .f32) (va vx : Vec Ideal S2000x256 .f32) (wl wr : Vec Ideal S128x256 .f32)
    (vb : Vec Ideal S1x128 .f32) (p : Fin 2000) (c : Fin 128) :
    k1_pay1 (F := Ideal) v0 va vx wl wr vb (ix2 p c)
      = RowMaps.layer (fun k : Fin 256 => va (ix2 p k)) (fun k : Fin 256 => vx (ix2 p k)) (v0 (ix2 p (0 : Fin 1)))
          (fun (c : Fin 128) (k : Fin 256) => wl (ix2 c k)) (fun (c : Fin 128) (k : Fin 256) => wr (ix2 c k)) (fun c : Fin 128 => vb (ix2 (0 : Fin 1) c)) c := by
  unfold k1_pay1 RowMaps.layer RowMaps.unitRow RowMaps.lin
  simp only [maximumf_apply, divf_apply, addf_apply, mulf_apply, broadcast_apply, truncf_apply, shapeCast_self, mm1_sqrt_apply,
    spreadCol_apply, trailingUnit_apply, mm1_apply, broadcastTo_1b_ab_apply]
  rw [rowSum1]
  simp only [maximumf_apply, divf_apply, addf_apply, mulf_apply, broadcast_apply, truncf_apply, shapeCast_self, mm1_sqrt_apply,
    spreadCol_apply, trailingUnit_apply, mm1_apply, broadcastTo_1b_ab_apply]
  rfl

end Cert.KernelIdeal.Rows

end
-- ==== Proof.Array1.lean ====
/-
  The second layer's result array after its region: every block the region writes back is the block of ONE function of
  the arrays the region finds — at node r and column c the layer's row map of row r of the neighbour sums, row r of the
  features, the neighbour count of r, the weights and the bias —, and the 25 blocks of 2000 rows tile the 50000 rows, so
  the array ends holding that function.
-/
import proofs.«178967_j81664508166317_2_alg».proof.Proof.Gen.KernelIdeal.Frame
import proofs.«178967_j81664508166317_2_alg».proof.Proof.Body1
import Idealize.ShloMosaic.Lib.Pipeline.Value

set_option maxRecDepth 16384

noncomputable section

namespace Cert.KernelIdeal.Rows

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

theorem idx1_0 : ∀ t : Fin cfg1.N, win1_0.index t (0 : Fin 2) = t.val ∧ win1_0.index t (1 : Fin 2) = 0 :=
  (by decide +kernel : ∀ t : Fin grid1.N, _)

/-- Window 0's block at point t is rows 2000·t … 2000·t + 1999 of its array. -/
theorem blk1_0 (c : Dev nD) (t : Fin cfg1.N) (p : Fin 2000) (k : Fin 256) (r : Fin 50000) (hr : r.val = t.val * 2000 + p.val) :
    iblk1 V c 0 t (ix2 p k) = V c main_v20 (ix2 r k) := by
  have e := idx1_0 t
  show V c main_v20 (((cfg1.win 0).blk t).view.emb (ix2 p k)) = V c main_v20 (ix2 r k)
  refine congrArg (V c main_v20) (funext fun a => Fin.ext ?_)
  match a with
  | ⟨0, _⟩ => show win1_0.index t (0 : Fin 2) * 2000 + 1 * p.val = r.val; have := e.1; omega
  | ⟨1, _⟩ => show win1_0.index t (1 : Fin 2) * 256 + 1 * k.val = k.val; have := e.2; omega

theorem idx1_1 : ∀ t : Fin cfg1.N, win1_1.index t (0 : Fin 2) = t.val ∧ win1_1.index t (1 : Fin 2) = 0 :=
  (by decide +kernel : ∀ t : Fin grid1.N, _)

/-- Window 1's block at point t is rows 2000·t … 2000·t + 1999 of its array. -/
theorem blk1_1 (c : Dev nD) (t : Fin cfg1.N) (p : Fin 2000) (k : Fin 256) (r : Fin 50000) (hr : r.val = t.val * 2000 + p.val) :
    iblk1 V c 1 t (ix2 p k) = V c main_v30 (ix2 r k) := by
  have e := idx1_1 t
  show V c main_v30 (((cfg1.win 1).blk t).view.emb (ix2 p k)) = V c main_v30 (ix2 r k)
  refine congrArg (V c main_v30) (funext fun a => Fin.ext ?_)
  match a with
  | ⟨0, _⟩ => show win1_1.index t (0 : Fin 2) * 2000 + 1 * p.val = r.val; have := e.1; omega
  | ⟨1, _⟩ => show win1_1.index t (1 : Fin 2) * 256 + 1 * k.val = k.val; have := e.2; omega

theorem idx1_2 : ∀ t : Fin cfg1.N, win1_2.index t (0 : Fin 2) = t.val ∧ win1_2.index t (1 : Fin 2) = 0 :=
  (by decide +kernel : ∀ t : Fin grid1.N, _)

/-- Window 2's block at point t is rows 2000·t … 2000·t + 1999 of its array. -/
theorem blk1_2 (c : Dev nD) (t : Fin cfg1.N) (p : Fin 2000) (k : Fin 1) (r : Fin 50000) (hr : r.val = t.val * 2000 + p.val) :
    iblk1 V c 2 t (ix2 p k) = V c main_v18 (ix2 r k) := by
  have e := idx1_2 t
  show V c main_v18 (((cfg1.win 2).blk t).view.emb (ix2 p k)) = V c main_v18 (ix2 r k)
  refine congrArg (V c main_v18) (funext fun a => Fin.ext ?_)
  match a with
  | ⟨0, _⟩ => show win1_2.index t (0 : Fin 2) * 2000 + 1 * p.val = r.val; have := e.1; omega
  | ⟨1, _⟩ => show win1_2.index t (1 : Fin 2) * 1 + 1 * k.val = k.val; have := e.2; omega

theorem idx1_3 : ∀ t : Fin cfg1.N, win1_3.index t (0 : Fin 2) = 0 ∧ win1_3.index t (1 : Fin 2) = 0 :=
  (by decide +kernel : ∀ t : Fin grid1.N, _)

/-- Window 3's block at every point is its whole array. -/
theorem blk1_3 (c : Dev nD) (t : Fin cfg1.N) (p : Fin 128) (k : Fin 256) :
    iblk1 V c 3 t (ix2 p k) = V c main_arg5 (ix2 p k) := by
  have e := idx1_3 t
  show V c main_arg5 (((cfg1.win 3).blk t).view.emb (ix2 p k)) = V c main_arg5 (ix2 p k)
  refine congrArg (V c main_arg5) (funext fun a => Fin.ext ?_)
  match a with
  | ⟨0, _⟩ => show win1_3.index t (0 : Fin 2) * 128 + 1 * p.val = p.val; have := e.1; omega
  | ⟨1, _⟩ => show win1_3.index t (1 : Fin 2) * 256 + 1 * k.val = k.val; have := e.2; omega

theorem idx1_4 : ∀ t : Fin cfg1.N, win1_4.index t (0 : Fin 2) = 0 ∧ win1_4.index t (1 : Fin 2) = 0 :=
  (by decide +kernel : ∀ t : Fin grid1.N, _)

/-- Window 4's block at every point is its whole array. -/
theorem blk1_4 (c : Dev nD) (t : Fin cfg1.N) (p : Fin 1) (k : Fin 128) :
    iblk1 V c 4 t (ix2 p k) = V c main_v31 (ix2 p k) := by
  have e := idx1_4 t
  show V c main_v31 (((cfg1.win 4).blk t).view.emb (ix2 p k)) = V c main_v31 (ix2 p k)
  refine congrArg (V c main_v31) (funext fun a => Fin.ext ?_)
  match a with
  | ⟨0, _⟩ => show win1_4.index t (0 : Fin 2) * 1 + 1 * p.val = p.val; have := e.1; omega
  | ⟨1, _⟩ => show win1_4.index t (1 : Fin 2) * 128 + 1 * k.val = k.val; have := e.2; omega

theorem idx1_5 : ∀ t : Fin cfg1.N, win1_5.index t (0 : Fin 2) = 0 ∧ win1_5.index t (1 : Fin 2) = 0 :=
  (by decide +kernel : ∀ t : Fin grid1.N, _)

/-- Window 5's block at every point is its whole array. -/
theorem blk1_5 (c : Dev nD) (t : Fin cfg1.N) (p : Fin 128) (k : Fin 256) :
    iblk1 V c 5 t (ix2 p k) = V c main_arg7 (ix2 p k) := by
  have e := idx1_5 t
  show V c main_arg7 (((cfg1.win 5).blk t).view.emb (ix2 p k)) = V c main_arg7 (ix2 p k)
  refine congrArg (V c main_arg7) (funext fun a => Fin.ext ?_)
  match a with
  | ⟨0, _⟩ => show win1_5.index t (0 : Fin 2) * 128 + 1 * p.val = p.val; have := e.1; omega
  | ⟨1, _⟩ => show win1_5.index t (1 : Fin 2) * 256 + 1 * k.val = k.val; have := e.2; omega

theorem idx1_6 : ∀ t : Fin cfg1.N, win1_6.index t (0 : Fin 2) = t.val ∧ win1_6.index t (1 : Fin 2) = 0 :=
  (by decide +kernel : ∀ t : Fin grid1.N, _)

/-- The layer at node r, column q, of the arrays the region finds. -/
def node1 (c : Dev nD) (r : Fin 50000) (q : Fin 128) : EReal :=
  RowMaps.layer (fun k : Fin 256 => V c main_v30 (ix2 r k)) (fun k : Fin 256 => V c main_v20 (ix2 r k)) (V c main_v18 (ix2 r (0 : Fin 1)))
    (fun (c' : Fin 128) (k : Fin 256) => V c main_arg5 (ix2 c' k)) (fun (c' : Fin 128) (k : Fin 256) => V c main_arg7 (ix2 c' k))
    (fun c' : Fin 128 => V c main_v31 (ix2 (0 : Fin 1) c')) q

/-- The whole result array as one function of the arrays the region finds. -/
def whole1 (c : Dev nD) : S50000x128.Idx → EReal :=
  fun i => node1 V c ⟨(i 0).val, idx2_lt0 i⟩ ⟨(i 1).val, idx2_lt1 i⟩

theorem whole1_ix2 (c : Dev nD) (r : Fin 50000) (q : Fin 128) : whole1 V c (ix2 r q) = node1 V c r q := rfl

/-- What point t writes back is block t of that function. -/
theorem flushed1_eq (c : Dev nD) (t : Fin cfg1.N) :
    (dat1 V c).flushed 6 t = ((cfg1.win 6).blk t).view.read (Elt Ideal) (whole1 V c) := by
  show (cfg1.win 6).cut (grid1.coords t) ((dat1 V c).after 6 t) = _
  rw [after1_6]
  unfold out1_6
  rw [View.canon_unit_zero hz1]
  simp only [View.ld_unit_zero (S := S2000x256) hz1, View.ld_unit_zero (S := S2000x1) hz1, View.ld_unit_zero (S := S128x256) hz1,
    View.ld_unit_zero (S := S1x128) hz1]
  refine funext fun (j : S2000x128.Idx) => ?_
  obtain ⟨p, q, rfl⟩ : ∃ (p : Fin 2000) (q : Fin 128), j = ix2 p q := ⟨j 0, j 1, eq_ix2 j⟩
  have e := idx1_6 t
  have hN : t.val < 25 := t.isLt.trans_eq N_1
  obtain ⟨r, hr⟩ : ∃ r : Fin 50000, r.val = t.val * 2000 + p.val := ⟨⟨t.val * 2000 + p.val, by have := p.isLt; omega⟩, rfl⟩
  have hemb : ((cfg1.win 6).blk t).view.emb (ix2 p q) = ix2 r q := funext fun a => Fin.ext (by
    match a with
    | ⟨0, _⟩ => show win1_6.index t (0 : Fin 2) * 2000 + 1 * p.val = r.val; have := e.1; omega
    | ⟨1, _⟩ => show win1_6.index t (1 : Fin 2) * 128 + 1 * q.val = q.val; have := e.2; omega)
  show k1_pay1 (iblk1 V c 2 t) (iblk1 V c 1 t) (iblk1 V c 0 t) (iblk1 V c 3 t) (iblk1 V c 5 t) (iblk1 V c 4 t) (ix2 p q)
    = whole1 V c (((cfg1.win 6).blk t).view.emb (ix2 p q))
  rw [hemb, whole1_ix2]
  refine (body1_apply (iblk1 V c 2 t) (iblk1 V c 1 t) (iblk1 V c 0 t) (iblk1 V c 3 t) (iblk1 V c 5 t) (iblk1 V c 4 t) p q).trans ?_
  unfold node1
  simp only [blk1_0 V c t p _ r hr, blk1_1 V c t p _ r hr, blk1_2 V c t p _ r hr, blk1_3 V c t, blk1_4 V c t, blk1_5 V c t]

/-- An index of the array is in point t's block iff each coordinate is in the block's range on its axis. -/
theorem mem_blk1 (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v32).slice (win1_6.rect t)).set ↔ _
  rw [View.set_slice_whole, Rect.mem_set_unit]
  exact Iff.rfl

/-- Row r lies in the block of point r / 2000. -/
theorem cover1 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, (by omega : (i 0).val / 2000 < 25).trans_eq N_1.symm⟩, rfl⟩
  have e := idx1_6 t
  refine ⟨t, flush1_6 t, ?_⟩
  rw [mem_blk1]
  intro a
  match a with
  | ⟨0, _⟩ => show win1_6.index t (0 : Fin 2) * 2000 ≤ (i 0).val ∧ (i 0).val < win1_6.index t (0 : Fin 2) * 2000 + 2000; have := e.1; omega
  | ⟨1, _⟩ => show win1_6.index t (1 : Fin 2) * 128 ≤ (i 1).val ∧ (i 1).val < win1_6.index t (1 : Fin 2) * 128 + 128; have := e.2; omega

/-- The array after the region. -/
theorem final1 (c : Dev nD) : (dat1 V c).arrAt 6 cfg1.N = whole1 V c :=
  (dat1 V c).arrAt_eq_of_cover 6 (whole1 V c) (fun t _ => flushed1_eq V c t) cover1

end Cert.KernelIdeal.Rows

end
-- ==== Proof.Body2.lean ====
/-
  The classifier's kernel body on one block of 2000 node rows, read at an entry, over the extended reals: the stored
  block at (p, c) is the softmax of the logits of row p of the input block — nothing of any other row.
-/
import proofs.«178967_j81664508166317_2_alg».proof.Proof.Gen.KernelIdeal.Skeleton
import proofs.«178967_j81664508166317_2_alg».proof.Proof.RowMaps
import proofs.«178967_j81664508166317_2_alg».proof.Proof.LibBlockOps
import Idealize.ShloMosaic.Lib.ValueLayout

noncomputable section

namespace Cert.KernelIdeal.Rows

open Cert.KernelIdeal Cert.KernelIdeal.Gen Cert.BlockOps
open Idealize.ShloMosaic Idealize.ShloMosaic.ValueIdx

/-- Row p of the left block against row c of the right matrix: both operands' second axis is contracted. -/
theorem mm2_lhs0 (i : S2000x2.Idx) (q : dot_S2000x128_S2x128_S2000x2_1_1_0_0_n_n.contr.Idx) : (dot_S2000x128_S2x128_S2000x2_1_1_0_0_n_n.lhsIdx i q 0).val = (i 0).val := by
  unfold DotDims.lhsIdx
  rw [dif_neg (show ¬(0 : Fin S2000x128.rank) ∈ dot_S2000x128_S2x128_S2000x2_1_1_0_0_n_n.lhsBatch by decide), dif_pos (show (0 : Fin S2000x128.rank) ∈ dot_S2000x128_S2x128_S2000x2_1_1_0_0_n_n.lhsNonContracting by decide)]
  rfl
theorem mm2_lhs1 (i : S2000x2.Idx) (q : dot_S2000x128_S2x128_S2000x2_1_1_0_0_n_n.contr.Idx) : (dot_S2000x128_S2x128_S2000x2_1_1_0_0_n_n.lhsIdx i q 1).val = (q ⟨0, by decide⟩).val :=
  dot_S2000x128_S2x128_S2000x2_1_1_0_0_n_n.lhsIdx_val_of_single rfl i q
theorem mm2_rhs0 (i : S2000x2.Idx) (q : dot_S2000x128_S2x128_S2000x2_1_1_0_0_n_n.contr.Idx) : (dot_S2000x128_S2x128_S2000x2_1_1_0_0_n_n.rhsIdx i q 0).val = (i 1).val := by
  unfold DotDims.rhsIdx
  rw [dif_neg (show ¬(0 : Fin S2x128.rank) ∈ dot_S2000x128_S2x128_S2000x2_1_1_0_0_n_n.rhsBatch by decide), dif_pos (show (0 : Fin S2x128.rank) ∈ dot_S2000x128_S2x128_S2000x2_1_1_0_0_n_n.rhsNonContracting by decide)]
  rfl
theorem mm2_rhs1 (i : S2000x2.Idx) (q : dot_S2000x128_S2x128_S2000x2_1_1_0_0_n_n.contr.Idx) : (dot_S2000x128_S2x128_S2000x2_1_1_0_0_n_n.rhsIdx i q 1).val = (q ⟨0, by decide⟩).val :=
  dot_S2000x128_S2x128_S2000x2_1_1_0_0_n_n.rhsIdx_val_of_single rfl i q

/-- The matrix unit's product into a zero accumulator, at the entry (p, c): the sum over k of the left block's
    (p, k) entry times the right matrix's (c, k) entry. -/
theorem mm2_apply (l : FVec Ideal S2000x128 .bf16) (r : FVec Ideal S2x128 .bf16) (p : Fin 2000) (c : Fin 2) :
    matmul dot_S2000x128_S2x128_S2000x2_1_1_0_0_n_n none l r (constant S2000x2 .f32 0x00000000#32) (ix2 p c) = ∑ k : Fin 128, l (ix2 p k) * r (ix2 c k) := by
  refine (Ideal.matmul_constant_zero_apply dot_S2000x128_S2x128_S2000x2_1_1_0_0_n_n none l r (ix2 p c)).trans ?_
  rw [← Equiv.sum_comp (ValueIdx.contrEquiv1 dot_S2000x128_S2x128_S2000x2_1_1_0_0_n_n 128 rfl rfl).symm]
  refine Finset.sum_congr rfl fun k _ => ?_
  have hk := ValueIdx.contrEquiv1_symm_val dot_S2000x128_S2x128_S2000x2_1_1_0_0_n_n 128 rfl rfl k
  have el : dot_S2000x128_S2x128_S2000x2_1_1_0_0_n_n.lhsIdx (ix2 p c) ((ValueIdx.contrEquiv1 dot_S2000x128_S2x128_S2000x2_1_1_0_0_n_n 128 rfl rfl).symm k) = ix2 p k := funext fun a => Fin.ext (by
    match a with
    | ⟨0, _⟩ => exact mm2_lhs0 _ _
    | ⟨1, _⟩ => exact (mm2_lhs1 _ _).trans hk)
  have er : dot_S2000x128_S2x128_S2000x2_1_1_0_0_n_n.rhsIdx (ix2 p c) ((ValueIdx.contrEquiv1 dot_S2000x128_S2x128_S2000x2_1_1_0_0_n_n 128 rfl rfl).symm k) = ix2 c k := funext fun a => Fin.ext (by
    match a with
    | ⟨0, _⟩ => exact mm2_rhs0 _ _
    | ⟨1, _⟩ => exact (mm2_rhs1 _ _).trans hk)
  rw [el, er]

/-- The exponential of a vector, at an entry. -/
theorem mm2_exp_apply {s : Shape} (v : FVec Ideal s .f32) (i : s.Idx) : exp v i = Ideal.exp (v i) := rfl

/-- The sum of each row of the block, at row p (the shapes spelt as the body spells them). -/
theorem rowSum2 (src : FVec Ideal S2000x2 .f32) (h : S2000x2.Reduces [1] S2000) (hφ : FKind.Formats .f32)
    (hacc : (0x00000000#32 : BitVec 32) = 0x00000000#32) (p : Fin 2000) :
    multiReduction .add [1] S2000 src 0x00000000#32 h hφ hacc (ix1 p) = ∑ k : Fin 2, src (ix2 p k) :=
  rowSum_apply src h hφ hacc p

/-- The maximum of each row of the block, at row p (the shapes spelt as the body spells them). -/
theorem rowMax2 (src : FVec Ideal S2000x2 .f32) (h : S2000x2.Reduces [1] S2000) (hφ : FKind.Formats .f32)
    (hacc : (0xFF800000#32 : BitVec 32) = 0xFF800000#32) (p : Fin 2000) :
    multiReduction .maximumf [1] S2000 src 0xFF800000#32 h hφ hacc (ix1 p)
      = Finset.univ.fold max (Ideal.ofBits .f32 0xFF800000#32) (fun k : Fin 2 => src (ix2 p k)) :=
  rowMax_apply src h hφ hacc p

/-- What the body stores, at the entry (p, c). -/
theorem body2_apply (vh : Vec Ideal S2000x128 .f32) (w : Vec Ideal S2x128 .f32) (vb : Vec Ideal S1x2 .f32) (p : Fin 2000) (c : Fin 2) :
    k2_pay1 (F := Ideal) vh w vb (ix2 p c)
      = RowMaps.softmax (RowMaps.logits (fun k : Fin 128 => vh (ix2 p k)) (fun (c : Fin 2) (k : Fin 128) => w (ix2 c k))
          (fun c : Fin 2 => vb (ix2 (0 : Fin 1) c))) c := by
  unfold k2_pay1 RowMaps.softmax RowMaps.logits
  simp only [divf_apply, subf_apply, addf_apply, truncf_apply, shapeCast_self, mm2_exp_apply,
    spreadCol_apply, trailingUnit_apply, mm2_apply, broadcastTo_1b_ab_apply]
  rw [rowSum2]
  simp only [divf_apply, subf_apply, addf_apply, truncf_apply, shapeCast_self, mm2_exp_apply,
    spreadCol_apply, trailingUnit_apply, mm2_apply, broadcastTo_1b_ab_apply]
  rw [rowMax2]
  simp only [divf_apply, subf_apply, addf_apply, truncf_apply, shapeCast_self, mm2_exp_apply,
    spreadCol_apply, trailingUnit_apply, mm2_apply, broadcastTo_1b_ab_apply]

end Cert.KernelIdeal.Rows

end
-- ==== Proof.Array2.lean ====
/-
  The classifier's result array after its region: every block the region writes back is the block of ONE function of
  the arrays the region finds — at node r and class c the softmax of the logits of row r —, and the 25 blocks of 2000
  rows tile the 50000 rows, so the array ends holding that function.
-/
import proofs.«178967_j81664508166317_2_alg».proof.Proof.Gen.KernelIdeal.Frame
import proofs.«178967_j81664508166317_2_alg».proof.Proof.Body2
import Idealize.ShloMosaic.Lib.Pipeline.Value

set_option maxRecDepth 16384

noncomputable section

namespace Cert.KernelIdeal.Rows

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

theorem idx2_0 : ∀ t : Fin cfg2.N, win2_0.index t (0 : Fin 2) = t.val ∧ win2_0.index t (1 : Fin 2) = 0 :=
  (by decide +kernel : ∀ t : Fin grid2.N, _)

/-- Window 0's block at point t is rows 2000·t … 2000·t + 1999 of its array. -/
theorem blk2_0 (c : Dev nD) (t : Fin cfg2.N) (p : Fin 2000) (k : Fin 128) (r : Fin 50000) (hr : r.val = t.val * 2000 + p.val) :
    iblk2 V c 0 t (ix2 p k) = V c main_v32 (ix2 r k) := by
  have e := idx2_0 t
  show V c main_v32 (((cfg2.win 0).blk t).view.emb (ix2 p k)) = V c main_v32 (ix2 r k)
  refine congrArg (V c main_v32) (funext fun a => Fin.ext ?_)
  match a with
  | ⟨0, _⟩ => show win2_0.index t (0 : Fin 2) * 2000 + 1 * p.val = r.val; have := e.1; omega
  | ⟨1, _⟩ => show win2_0.index t (1 : Fin 2) * 128 + 1 * k.val = k.val; have := e.2; omega

theorem idx2_1 : ∀ t : Fin cfg2.N, win2_1.index t (0 : Fin 2) = 0 ∧ win2_1.index t (1 : Fin 2) = 0 :=
  (by decide +kernel : ∀ t : Fin grid2.N, _)

/-- Window 1's block at every point is its whole array. -/
theorem blk2_1 (c : Dev nD) (t : Fin cfg2.N) (p : Fin 2) (k : Fin 128) :
    iblk2 V c 1 t (ix2 p k) = V c main_arg8 (ix2 p k) := by
  have e := idx2_1 t
  show V c main_arg8 (((cfg2.win 1).blk t).view.emb (ix2 p k)) = V c main_arg8 (ix2 p k)
  refine congrArg (V c main_arg8) (funext fun a => Fin.ext ?_)
  match a with
  | ⟨0, _⟩ => show win2_1.index t (0 : Fin 2) * 2 + 1 * p.val = p.val; have := e.1; omega
  | ⟨1, _⟩ => show win2_1.index t (1 : Fin 2) * 128 + 1 * k.val = k.val; have := e.2; omega

theorem idx2_2 : ∀ t : Fin cfg2.N, win2_2.index t (0 : Fin 2) = 0 ∧ win2_2.index t (1 : Fin 2) = 0 :=
  (by decide +kernel : ∀ t : Fin grid2.N, _)

/-- Window 2's block at every point is its whole array. -/
theorem blk2_2 (c : Dev nD) (t : Fin cfg2.N) (p : Fin 1) (k : Fin 2) :
    iblk2 V c 2 t (ix2 p k) = V c main_v33 (ix2 p k) := by
  have e := idx2_2 t
  show V c main_v33 (((cfg2.win 2).blk t).view.emb (ix2 p k)) = V c main_v33 (ix2 p k)
  refine congrArg (V c main_v33) (funext fun a => Fin.ext ?_)
  match a with
  | ⟨0, _⟩ => show win2_2.index t (0 : Fin 2) * 1 + 1 * p.val = p.val; have := e.1; omega
  | ⟨1, _⟩ => show win2_2.index t (1 : Fin 2) * 2 + 1 * k.val = k.val; have := e.2; omega

theorem idx2_3 : ∀ t : Fin cfg2.N, win2_3.index t (0 : Fin 2) = t.val ∧ win2_3.index t (1 : Fin 2) = 0 :=
  (by decide +kernel : ∀ t : Fin grid2.N, _)

/-- The class probabilities at node r, class q, of the arrays the region finds. -/
def node2 (c : Dev nD) (r : Fin 50000) (q : Fin 2) : EReal :=
  RowMaps.softmax (RowMaps.logits (fun k : Fin 128 => V c main_v32 (ix2 r k)) (fun (c' : Fin 2) (k : Fin 128) => V c main_arg8 (ix2 c' k))
    (fun c' : Fin 2 => V c main_v33 (ix2 (0 : Fin 1) c'))) q

/-- The whole result array as one function of the arrays the region finds. -/
def whole2 (c : Dev nD) : S50000x2.Idx → EReal :=
  fun i => node2 V c ⟨(i 0).val, idx2_lt0 i⟩ ⟨(i 1).val, idx2_lt1 i⟩

theorem whole2_ix2 (c : Dev nD) (r : Fin 50000) (q : Fin 2) : whole2 V c (ix2 r q) = node2 V c r q := rfl

/-- What point t writes back is block t of that function. -/
theorem flushed2_eq (c : Dev nD) (t : Fin cfg2.N) :
    (dat2 V c).flushed 3 t = ((cfg2.win 3).blk t).view.read (Elt Ideal) (whole2 V c) := by
  show (cfg2.win 3).cut (grid2.coords t) ((dat2 V c).after 3 t) = _
  rw [after2_3]
  unfold out2_3
  rw [View.canon_unit_zero hz2]
  simp only [View.ld_unit_zero (S := S2000x128) hz2, View.ld_unit_zero (S := S2x128) hz2, View.ld_unit_zero (S := S1x2) hz2]
  refine funext fun (j : S2000x2.Idx) => ?_
  obtain ⟨p, q, rfl⟩ : ∃ (p : Fin 2000) (q : Fin 2), j = ix2 p q := ⟨j 0, j 1, eq_ix2 j⟩
  have e := idx2_3 t
  have hN : t.val < 25 := t.isLt.trans_eq N_2
  obtain ⟨r, hr⟩ : ∃ r : Fin 50000, r.val = t.val * 2000 + p.val := ⟨⟨t.val * 2000 + p.val, by have := p.isLt; omega⟩, rfl⟩
  have hemb : ((cfg2.win 3).blk t).view.emb (ix2 p q) = ix2 r q := funext fun a => Fin.ext (by
    match a with
    | ⟨0, _⟩ => show win2_3.index t (0 : Fin 2) * 2000 + 1 * p.val = r.val; have := e.1; omega
    | ⟨1, _⟩ => show win2_3.index t (1 : Fin 2) * 2 + 1 * q.val = q.val; have := e.2; omega)
  show k2_pay1 (iblk2 V c 0 t) (iblk2 V c 1 t) (iblk2 V c 2 t) (ix2 p q)
    = whole2 V c (((cfg2.win 3).blk t).view.emb (ix2 p q))
  rw [hemb, whole2_ix2]
  refine (body2_apply (iblk2 V c 0 t) (iblk2 V c 1 t) (iblk2 V c 2 t) p q).trans ?_
  unfold node2
  simp only [blk2_0 V c t p _ r hr, blk2_1 V c t, blk2_2 V c t]

/-- An index of the array is in point t's block iff each coordinate is in the block's range on its axis. -/
theorem mem_blk2 (t : Fin cfg2.N) (i : S50000x2.Idx) :
    i ∈ ((cfg2.win 3).blk t).view.set ↔ ∀ a : Fin 2, win2_3.index t a * S2000x2.size a ≤ (i a).val ∧ (i a).val < win2_3.index t a * S2000x2.size a + S2000x2.size a := by
  show i ∈ ((View.whole main_v34).slice (win2_3.rect t)).set ↔ _
  rw [View.set_slice_whole, Rect.mem_set_unit]
  exact Iff.rfl

/-- Row r lies in the block of point r / 2000. -/
theorem cover2 (i : S50000x2.Idx) : ∃ t : Fin cfg2.N, (cfg2.win 3).flush t = true ∧ i ∈ ((cfg2.win 3).blk t).view.set := by
  have hi0 : (i 0).val < 50000 := (i 0).isLt
  have hi1 : (i 1).val < 2 := (i 1).isLt
  obtain ⟨t, ht⟩ : ∃ t : Fin cfg2.N, t.val = (i 0).val / 2000 :=
    ⟨⟨(i 0).val / 2000, (by omega : (i 0).val / 2000 < 25).trans_eq N_2.symm⟩, rfl⟩
  have e := idx2_3 t
  refine ⟨t, flush2_3 t, ?_⟩
  rw [mem_blk2]
  intro a
  match a with
  | ⟨0, _⟩ => show win2_3.index t (0 : Fin 2) * 2000 ≤ (i 0).val ∧ (i 0).val < win2_3.index t (0 : Fin 2) * 2000 + 2000; have := e.1; omega
  | ⟨1, _⟩ => show win2_3.index t (1 : Fin 2) * 2 ≤ (i 1).val ∧ (i 1).val < win2_3.index t (1 : Fin 2) * 2 + 2; have := e.2; omega

/-- The array after the region. -/
theorem final2 (c : Dev nD) : (dat2 V c).arrAt 3 cfg2.N = whole2 V c :=
  (dat2 V c).arrAt_eq_of_cover 3 (whole2 V c) (fun t _ => flushed2_eq V c t) cover2

end Cert.KernelIdeal.Rows

end
-- ==== Proof.RefRows1.lean ====
/-
  The reference program after its first layer, read at an entry, over the extended reals: at node r and column c its
  array holds the first layer's row map (RowMaps.layerPos) of row r of the neighbour sums, row r of the features, the
  neighbour count of r, the weights and the bias. The reference spells a transposed weight matrix, a bias spread over
  all rows and a length spread over all columns; at an entry each of these reads one operand entry.
-/
import proofs.«178967_j81664508166317_2_alg».proof.Proof.RefRead
import proofs.«178967_j81664508166317_2_alg».proof.Proof.RowMaps

noncomputable section

namespace Cert.ReferenceIdeal.Rows

open Cert.ReferenceIdeal Cert.ReferenceIdeal.Gen Cert.ReferenceIdeal.Read
open Idealize.ShloMosaic Idealize.ShloMosaic.ValueIdx

/-! ## Which operand entry each layout step reads -/

theorem e_v34 (r : Fin 50000) (c : Fin 256) : idx_main_v34 (ix2 r c) = ix2 r (0 : Fin 1) := funext fun a => Fin.ext (by match a with | ⟨0, _⟩ => rfl | ⟨1, _⟩ => rfl)
theorem e_c0v2 (r : Fin 50000) : idx_main_call0_v2 (ix2 r (0 : Fin 1)) = ix1 r := funext fun a => Fin.ext (by match a with | ⟨0, _⟩ => rfl)
theorem e_c0v1 (r : Fin 50000) (k : Fin 256) : idx_main_call0_v1 (ix1 r) k = ix2 r k := funext fun a => Fin.ext (by match a with | ⟨0, _⟩ => rfl | ⟨1, _⟩ => rfl)
theorem e_l24 (r : Fin 50000) (c : Fin 256) (k : Fin 128) : lidx_main_v24 (ix2 r c) k = ix2 r k := funext fun a => Fin.ext (by match a with | ⟨0, _⟩ => rfl | ⟨1, _⟩ => rfl)
theorem e_r24 (r : Fin 50000) (c : Fin 256) (k : Fin 128) : ridx_main_v24 (ix2 r c) k = ix2 k c := funext fun a => Fin.ext (by match a with | ⟨0, _⟩ => rfl | ⟨1, _⟩ => rfl)
theorem e_v23 (k : Fin 128) (c : Fin 256) : idx_main_v23 (ix2 k c) = ix2 c k := funext fun a => Fin.ext (by match a with | ⟨0, _⟩ => rfl | ⟨1, _⟩ => rfl)
theorem e_v21 (r : Fin 50000) (k : Fin 128) : idx_main_v21 (ix2 r k) = ix2 r (0 : Fin 1) := funext fun a => Fin.ext (by match a with | ⟨0, _⟩ => rfl | ⟨1, _⟩ => rfl)
theorem e_v20 (r : Fin 50000) : idx_main_v20 (ix2 r (0 : Fin 1)) = ix1 r := funext fun a => Fin.ext (by match a with | ⟨0, _⟩ => rfl)
theorem e_v26 (r : Fin 50000) (c : Fin 256) : idx_main_v26 (ix2 r c) = ix2 (0 : Fin 1) c := funext fun a => Fin.ext (by match a with | ⟨0, _⟩ => rfl | ⟨1, _⟩ => rfl)
theorem e_v25 (c : Fin 256) : idx_main_v25 (ix2 (0 : Fin 1) c) = ix1 c := funext fun a => Fin.ext (by match a with | ⟨0, _⟩ => rfl)
theorem e_l29 (r : Fin 50000) (c : Fin 256) (k : Fin 128) : lidx_main_v29 (ix2 r c) k = ix2 r k := funext fun a => Fin.ext (by match a with | ⟨0, _⟩ => rfl | ⟨1, _⟩ => rfl)
theorem e_r29 (r : Fin 50000) (c : Fin 256) (k : Fin 128) : ridx_main_v29 (ix2 r c) k = ix2 k c := funext fun a => Fin.ext (by match a with | ⟨0, _⟩ => rfl | ⟨1, _⟩ => rfl)
theorem e_v28 (k : Fin 128) (c : Fin 256) : idx_main_v28 (ix2 k c) = ix2 c k := funext fun a => Fin.ext (by match a with | ⟨0, _⟩ => rfl | ⟨1, _⟩ => rfl)

/-! ## The first layer -/

/-- The reference after its first layer and the floor at zero, at node r, column c. -/
theorem layer1_apply (x0 : (⟨S50000x128, .f32⟩ : BufTy).Contents (Elt Ideal)) (x1 : (⟨S2x600000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (r : Fin 50000) (c : Fin 256) :
    val_main_v36 (F := Ideal) x0 x1 x2 x3 x4 (ix2 r c)
      = RowMaps.layerPos (fun k : Fin 128 => val_main_v13 (F := Ideal) x0 x1 (ix2 r k)) (fun k : Fin 128 => x0 (ix2 r k))
          (val_main_v17 (F := Ideal) x1 (ix1 r)) (fun (c : Fin 256) (k : Fin 128) => x2 (ix2 c k))
          (fun (c : Fin 256) (k : Fin 128) => x4 (ix2 c k)) (fun c : Fin 256 => x3 (ix1 c)) c := by
  unfold RowMaps.layerPos RowMaps.layer RowMaps.unitRow RowMaps.lin
  simp only [val_main_v36_apply, val_main_v35_apply, val_main_v34_apply, val_main_v33_apply, val_main_v32_apply, val_main_cst_4_apply,
    val_main_v31_apply, val_main_call0_v2_apply, val_main_call0_v1_apply, val_main_call0_cst_apply, val_main_call0_v0_apply,
    val_main_v30_apply, val_main_v27_apply, val_main_v26_apply, val_main_v25_apply, val_main_v24_apply, val_main_v23_apply,
    val_main_v22_apply, val_main_v21_apply, val_main_v20_apply, val_main_v19_apply, val_main_v18_apply, val_main_cst_3_apply,
    val_main_v29_apply, val_main_v28_apply, val_main_call1_v0_apply, val_main_call1_cst_apply,
    e_v34, e_c0v2, e_c0v1, e_l24, e_r24, e_v23, e_v21, e_v20, e_v26, e_v25, e_l29, e_r29, e_v28,
    Ideal.ofBits_def, Ideal.maximumf_def, Ideal.hostDivf_def, Ideal.hostUnary_sqrt_def, Ideal.mulf_def, Ideal.addf_def,
    RowMaps.zero_add_sum]

end Cert.ReferenceIdeal.Rows

end
-- ==== Proof.RefRows2.lean ====
/-
  The reference program after its second layer, read at an entry, over the extended reals: at node r and column c its
  array holds the second layer's row map (RowMaps.layer) of row r of the second neighbour sums, row r of the first
  layer's array, the neighbour count of r, the second layer's weights and bias.
-/
import proofs.«178967_j81664508166317_2_alg».proof.Proof.RefRead
import proofs.«178967_j81664508166317_2_alg».proof.Proof.RowMaps

noncomputable section

namespace Cert.ReferenceIdeal.Rows

open Cert.ReferenceIdeal Cert.ReferenceIdeal.Gen Cert.ReferenceIdeal.Read
open Idealize.ShloMosaic Idealize.ShloMosaic.ValueIdx

/-! ## Which operand entry each layout step reads -/

theorem e_v67 (r : Fin 50000) (c : Fin 128) : idx_main_v67 (ix2 r c) = ix2 r (0 : Fin 1) := funext fun a => Fin.ext (by match a with | ⟨0, _⟩ => rfl | ⟨1, _⟩ => rfl)
theorem e_c2v2 (r : Fin 50000) : idx_main_call2_v2 (ix2 r (0 : Fin 1)) = ix1 r := funext fun a => Fin.ext (by match a with | ⟨0, _⟩ => rfl)
theorem e_c2v1 (r : Fin 50000) (k : Fin 128) : idx_main_call2_v1 (ix1 r) k = ix2 r k := funext fun a => Fin.ext (by match a with | ⟨0, _⟩ => rfl | ⟨1, _⟩ => rfl)
theorem e_l57 (r : Fin 50000) (c : Fin 128) (k : Fin 256) : lidx_main_v57 (ix2 r c) k = ix2 r k := funext fun a => Fin.ext (by match a with | ⟨0, _⟩ => rfl | ⟨1, _⟩ => rfl)
theorem e_r57 (r : Fin 50000) (c : Fin 128) (k : Fin 256) : ridx_main_v57 (ix2 r c) k = ix2 k c := funext fun a => Fin.ext (by match a with | ⟨0, _⟩ => rfl | ⟨1, _⟩ => rfl)
theorem e_v56 (k : Fin 256) (c : Fin 128) : idx_main_v56 (ix2 k c) = ix2 c k := funext fun a => Fin.ext (by match a with | ⟨0, _⟩ => rfl | ⟨1, _⟩ => rfl)
theorem e_v54 (r : Fin 50000) (k : Fin 256) : idx_main_v54 (ix2 r k) = ix2 r (0 : Fin 1) := funext fun a => Fin.ext (by match a with | ⟨0, _⟩ => rfl | ⟨1, _⟩ => rfl)
theorem e_v53 (r : Fin 50000) : idx_main_v53 (ix2 r (0 : Fin 1)) = ix1 r := funext fun a => Fin.ext (by match a with | ⟨0, _⟩ => rfl)
theorem e_v59 (r : Fin 50000) (c : Fin 128) : idx_main_v59 (ix2 r c) = ix2 (0 : Fin 1) c := funext fun a => Fin.ext (by match a with | ⟨0, _⟩ => rfl | ⟨1, _⟩ => rfl)
theorem e_v58 (c : Fin 128) : idx_main_v58 (ix2 (0 : Fin 1) c) = ix1 c := funext fun a => Fin.ext (by match a with | ⟨0, _⟩ => rfl)
theorem e_l62 (r : Fin 50000) (c : Fin 128) (k : Fin 256) : lidx_main_v62 (ix2 r c) k = ix2 r k := funext fun a => Fin.ext (by match a with | ⟨0, _⟩ => rfl | ⟨1, _⟩ => rfl)
theorem e_r62 (r : Fin 50000) (c : Fin 128) (k : Fin 256) : ridx_main_v62 (ix2 r c) k = ix2 k c := funext fun a => Fin.ext (by match a with | ⟨0, _⟩ => rfl | ⟨1, _⟩ => rfl)
theorem e_v61 (k : Fin 256) (c : Fin 128) : idx_main_v61 (ix2 k c) = ix2 c k := funext fun a => Fin.ext (by match a with | ⟨0, _⟩ => rfl | ⟨1, _⟩ => rfl)

/-! ## The second layer -/

/-- The reference after its second layer, at node r, column c. -/
theorem layer2_apply (x0 : (⟨S50000x128, .f32⟩ : BufTy).Contents (Elt Ideal)) (x1 : (⟨S2x600000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S128x256, .f32⟩ : BufTy).Contents (Elt Ideal)) (x6 : (⟨S128, .f32⟩ : BufTy).Contents (Elt Ideal)) (x7 : (⟨S128x256, .f32⟩ : BufTy).Contents (Elt Ideal)) (r : Fin 50000) (c : Fin 128) :
    val_main_v68 (F := Ideal) x0 x1 x2 x3 x4 x5 x6 x7 (ix2 r c)
      = RowMaps.layer (fun k : Fin 256 => val_main_v46 (F := Ideal) x0 x1 x2 x3 x4 (ix2 r k)) (fun k : Fin 256 => val_main_v36 (F := Ideal) x0 x1 x2 x3 x4 (ix2 r k))
          (val_main_v50 (F := Ideal) x1 (ix1 r)) (fun (c : Fin 128) (k : Fin 256) => x5 (ix2 c k))
          (fun (c : Fin 128) (k : Fin 256) => x7 (ix2 c k)) (fun c : Fin 128 => x6 (ix1 c)) c := by
  unfold RowMaps.layer RowMaps.unitRow RowMaps.lin
  simp only [val_main_v68_apply, val_main_v67_apply, val_main_v66_apply, val_main_v65_apply, val_main_cst_11_apply,
    val_main_v64_apply, val_main_call2_v2_apply, val_main_call2_v1_apply, val_main_call2_cst_apply, val_main_call2_v0_apply,
    val_main_v63_apply, val_main_v60_apply, val_main_v59_apply, val_main_v58_apply, val_main_v57_apply, val_main_v56_apply,
    val_main_v55_apply, val_main_v54_apply, val_main_v53_apply, val_main_v52_apply, val_main_v51_apply, val_main_cst_10_apply,
    val_main_v62_apply, val_main_v61_apply,
    e_v67, e_c2v2, e_c2v1, e_l57, e_r57, e_v56, e_v54, e_v53, e_v59, e_v58, e_l62, e_r62, e_v61,
    Ideal.ofBits_def, Ideal.maximumf_def, Ideal.hostDivf_def, Ideal.hostUnary_sqrt_def, Ideal.mulf_def, Ideal.addf_def,
    RowMaps.zero_add_sum]

end Cert.ReferenceIdeal.Rows

end
-- ==== Proof.RefRows3.lean ====
/-
  The reference program's result, read at an entry, over the extended reals: at node r and class c the softmax of the
  logits of row r of the second layer's array. The reference takes the row maximum starting from -inf and then once
  more against -inf, which changes nothing.
-/
import proofs.«178967_j81664508166317_2_alg».proof.Proof.RefRead
import proofs.«178967_j81664508166317_2_alg».proof.Proof.RowMaps

noncomputable section

namespace Cert.ReferenceIdeal.Rows

open Cert.ReferenceIdeal Cert.ReferenceIdeal.Gen Cert.ReferenceIdeal.Read
open Idealize.ShloMosaic Idealize.ShloMosaic.ValueIdx

/-! ## Which operand entry each layout step reads -/

theorem e_l70 (r : Fin 50000) (c : Fin 2) (k : Fin 128) : lidx_main_v70 (ix2 r c) k = ix2 r k := funext fun a => Fin.ext (by match a with | ⟨0, _⟩ => rfl | ⟨1, _⟩ => rfl)
theorem e_r70 (r : Fin 50000) (c : Fin 2) (k : Fin 128) : ridx_main_v70 (ix2 r c) k = ix2 k c := funext fun a => Fin.ext (by match a with | ⟨0, _⟩ => rfl | ⟨1, _⟩ => rfl)
theorem e_v69 (k : Fin 128) (c : Fin 2) : idx_main_v69 (ix2 k c) = ix2 c k := funext fun a => Fin.ext (by match a with | ⟨0, _⟩ => rfl | ⟨1, _⟩ => rfl)
theorem e_v72 (r : Fin 50000) (c : Fin 2) : idx_main_v72 (ix2 r c) = ix2 (0 : Fin 1) c := funext fun a => Fin.ext (by match a with | ⟨0, _⟩ => rfl | ⟨1, _⟩ => rfl)
theorem e_v71 (c : Fin 2) : idx_main_v71 (ix2 (0 : Fin 1) c) = ix1 c := funext fun a => Fin.ext (by match a with | ⟨0, _⟩ => rfl)
theorem e_v78 (r : Fin 50000) (c : Fin 2) : idx_main_v78 (ix2 r c) = ix2 r (0 : Fin 1) := funext fun a => Fin.ext (by match a with | ⟨0, _⟩ => rfl | ⟨1, _⟩ => rfl)
theorem e_v77 (r : Fin 50000) : idx_main_v77 (ix2 r (0 : Fin 1)) = ix1 r := funext fun a => Fin.ext (by match a with | ⟨0, _⟩ => rfl)
theorem e_v83 (r : Fin 50000) (c : Fin 2) : idx_main_v83 (ix2 r c) = ix2 r (0 : Fin 1) := funext fun a => Fin.ext (by match a with | ⟨0, _⟩ => rfl | ⟨1, _⟩ => rfl)
theorem e_v82 (r : Fin 50000) : idx_main_v82 (ix2 r (0 : Fin 1)) = ix1 r := funext fun a => Fin.ext (by match a with | ⟨0, _⟩ => rfl)
theorem e_v81 (r : Fin 50000) (k : Fin 2) : idx_main_v81 (ix1 r) k = ix2 r k := funext fun a => Fin.ext (by match a with | ⟨0, _⟩ => rfl | ⟨1, _⟩ => rfl)

/-! ## The classifier -/

instance : Subsingleton S_.Idx := ⟨fun a b => funext fun d => d.elim0⟩

/-- The row maximum the reference takes, at node r: the maximum of the row's two logits started from -inf. -/
theorem rowMax_apply (x0 : (⟨S50000x128, .f32⟩ : BufTy).Contents (Elt Ideal)) (x1 : (⟨S2x600000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S128x256, .f32⟩ : BufTy).Contents (Elt Ideal)) (x6 : (⟨S128, .f32⟩ : BufTy).Contents (Elt Ideal)) (x7 : (⟨S128x256, .f32⟩ : BufTy).Contents (Elt Ideal)) (x8 : (⟨S2x128, .f32⟩ : BufTy).Contents (Elt Ideal)) (x9 : (⟨S2, .f32⟩ : BufTy).Contents (Elt Ideal)) (r : Fin 50000) :
    val_main_v74 (F := Ideal) x0 x1 x2 x3 x4 x5 x6 x7 x8 x9 (ix1 r)
      = Finset.univ.fold max RowMaps.negInf (fun k : Fin 2 => val_main_v73 (F := Ideal) x0 x1 x2 x3 x4 x5 x6 x7 x8 x9 (ix2 r k)) := by
  unfold val_main_v74
  generalize val_main_v73 (F := Ideal) x0 x1 x2 x3 x4 x5 x6 x7 x8 x9 = y
  refine (Host.reduce_eq_fold_single (FloatOps.maximumf (F := Ideal) (φ := .f32)) y (val_main_cst_12 (F := Ideal)) reducesTo_S50000x2_S50000_d1 (by decide) h_S_ (ix1 r)).trans ?_
  exact congrArg (fun f : Fin 2 → EReal => Finset.fold max RowMaps.negInf f Finset.univ) (funext fun k => congrArg y (funext fun a => Fin.ext (by match a with | ⟨0, _⟩ => rfl | ⟨1, _⟩ => rfl)))

/-- The reference's result, at node r, class c. -/
theorem result_apply (x0 : (⟨S50000x128, .f32⟩ : BufTy).Contents (Elt Ideal)) (x1 : (⟨S2x600000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S128x256, .f32⟩ : BufTy).Contents (Elt Ideal)) (x6 : (⟨S128, .f32⟩ : BufTy).Contents (Elt Ideal)) (x7 : (⟨S128x256, .f32⟩ : BufTy).Contents (Elt Ideal)) (x8 : (⟨S2x128, .f32⟩ : BufTy).Contents (Elt Ideal)) (x9 : (⟨S2, .f32⟩ : BufTy).Contents (Elt Ideal)) (r : Fin 50000) (c : Fin 2) :
    val_main_v84 (F := Ideal) x0 x1 x2 x3 x4 x5 x6 x7 x8 x9 (ix2 r c)
      = RowMaps.softmax (RowMaps.logits (fun k : Fin 128 => val_main_v68 (F := Ideal) x0 x1 x2 x3 x4 x5 x6 x7 (ix2 r k))
          (fun (c : Fin 2) (k : Fin 128) => x8 (ix2 c k)) (fun c : Fin 2 => x9 (ix1 c))) c := by
  unfold RowMaps.softmax RowMaps.logits
  simp only [val_main_v84_apply, val_main_v83_apply, val_main_v82_apply, val_main_v81_apply, val_main_cst_14_apply, val_main_v80_apply,
    val_main_v79_apply, val_main_v78_apply, val_main_v77_apply, val_main_v76_apply, val_main_v75_apply, val_main_cst_13_apply,
    rowMax_apply, val_main_v73_apply, val_main_v72_apply, val_main_v71_apply, val_main_v70_apply, val_main_v69_apply,
    e_l70, e_r70, e_v69, e_v72, e_v71, e_v78, e_v77, e_v83, e_v82, e_v81,
    Ideal.ofBits_def, Ideal.maximumf_def, Ideal.hostDivf_def, Ideal.hostUnary_exp_def, Ideal.subf_def, Ideal.addf_def,
    RowMaps.zero_add_sum, RowMaps.max_negInf_fold]

end Cert.ReferenceIdeal.Rows

end
-- ==== Proof.RefRows.lean ====
/-
  The reference program's three stages read at an entry (RefRows1: after the first layer; RefRows2: after the second
  layer; RefRows3: the result), gathered under one name.
-/
import proofs.«178967_j81664508166317_2_alg».proof.Proof.RefRows1
import proofs.«178967_j81664508166317_2_alg».proof.Proof.RefRows2
import proofs.«178967_j81664508166317_2_alg».proof.Proof.RefRows3
-- ==== Proof.ResultRun.lean ====
/-
  The idealized kernel's run with its RESULT array named: every weakly fair execution of @main ends with the result
  buffer (the third region's output array) holding the contents the last segment boundary assigns it, and with the ten
  argument arrays as launched: @main is six segments (three stretches of host operations, three regions) launched from
  the initial memory; the thread state after the last segment holds every unscoped buffer at the last boundary's
  contents, and the final state is read against it, the result's buffer among the others.
-/
import proofs.«178967_j81664508166317_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates without a fault; the result buffer ends at
    the last boundary's contents of it, and every argument array ends as launched. -/
theorem run_result : θ_run defs (onTc (τ := τ) (main (F := F))) ⟨m, fun _ => 0, ρ⟩ (fun r => ∀ c : Dev nD,
      r.2.mem ((c.tc : Thread nD τ).loc main_v34) = W6 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v34 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.RunValue

end
-- ==== Proof.HostChain.lean ====
/-
  From the launch memory to the result, through the three stretches of host operations and the three regions.

  The host operations before the first region build the neighbour sums (a gather of feature rows by source node, added
  into the rows of the target nodes), the neighbour counts and the bias row; they are the operations the reference
  applies, so their values are named by the reference's own stage functions of the argument arrays. The first region
  then leaves the reference's first-layer array (RowMaps.layerPos at every node); the host operations after it build the
  second layer's neighbour sums from that array, again the reference's own; the second region leaves the reference's
  second-layer array; and the third region leaves the reference's result, the softmax of the logits at every node.
-/
import proofs.«178967_j81664508166317_2_alg».proof.Proof.Array0
import proofs.«178967_j81664508166317_2_alg».proof.Proof.Array1
import proofs.«178967_j81664508166317_2_alg».proof.Proof.Array2
import proofs.«178967_j81664508166317_2_alg».proof.Proof.RefRows
import proofs.«178967_j81664508166317_2_alg».proof.Proof.ResultRun
import Idealize.ShloMosaic.Lib.StableHlo.Run
import Idealize.ShloMosaic.Lib.ValueLayout

set_option maxRecDepth 16384

noncomputable section

namespace Cert.KernelIdeal.Chain

open Cert.KernelIdeal Cert.KernelIdeal.Gen Cert.KernelIdeal.Rows
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## What the host operations before the first region leave -/

/-- A buffer the first stretch computes, or leaves alone, as a term of the launch memory. -/
macro "first_stretch" : tactic =>
  `(tactic| (show StableHlo.after hostOps0 (W0 _ _ _) (Proc.devRef .tc _) = _; after_results_simp <;> rfl))

theorem w1_arg0 : W1 m ρ c (Proc.devRef .tc main_arg0) = (m ((c : Thread nD τ).loc main_arg0)) := by first_stretch
theorem w1_arg1 : W1 m ρ c (Proc.devRef .tc main_arg1) = (m ((c : Thread nD τ).loc main_arg1)) := by first_stretch
theorem w1_arg2 : W1 m ρ c (Proc.devRef .tc main_arg2) = (m ((c : Thread nD τ).loc main_arg2)) := by first_stretch
theorem w1_arg3 : W1 m ρ c (Proc.devRef .tc main_arg3) = (m ((c : Thread nD τ).loc main_arg3)) := by first_stretch
theorem w1_arg4 : W1 m ρ c (Proc.devRef .tc main_arg4) = (m ((c : Thread nD τ).loc main_arg4)) := by first_stretch
theorem w1_arg5 : W1 m ρ c (Proc.devRef .tc main_arg5) = (m ((c : Thread nD τ).loc main_arg5)) := by first_stretch
theorem w1_arg6 : W1 m ρ c (Proc.devRef .tc main_arg6) = (m ((c : Thread nD τ).loc main_arg6)) := by first_stretch
theorem w1_arg7 : W1 m ρ c (Proc.devRef .tc main_arg7) = (m ((c : Thread nD τ).loc main_arg7)) := by first_stretch
theorem w1_arg8 : W1 m ρ c (Proc.devRef .tc main_arg8) = (m ((c : Thread nD τ).loc main_arg8)) := by first_stretch
theorem w1_arg9 : W1 m ρ c (Proc.devRef .tc main_arg9) = (m ((c : Thread nD τ).loc main_arg9)) := by first_stretch

/-- The source and target node of every edge, as the reference names them. -/
theorem w1_src : W1 m ρ c (Proc.devRef .tc main_v1) = Cert.ReferenceIdeal.Read.val_main_v1 (F := Ideal) (m ((c : Thread nD τ).loc main_arg1)) := by first_stretch
theorem w1_dst : W1 m ρ c (Proc.devRef .tc main_v3) = Cert.ReferenceIdeal.Read.val_main_v3 (F := Ideal) (m ((c : Thread nD τ).loc main_arg1)) := by first_stretch

/-- The neighbour sums of the input features. -/
theorem s0_agg : V1 m ρ c main_v13 = Cert.ReferenceIdeal.Read.val_main_v13 (F := Ideal) (m ((c : Thread nD τ).loc main_arg0)) (m ((c : Thread nD τ).loc main_arg1)) := by first_stretch

/-- The neighbour count of node r. -/
theorem s0_cnt (r : Fin 50000) :
    (V1 m ρ c main_v18 : S50000x1.Idx → EReal) (ix2 r (0 : Fin 1)) = Cert.ReferenceIdeal.Read.val_main_v17 (F := Ideal) (m ((c : Thread nD τ).loc main_arg1)) (ix1 r) := by
  have e : (V1 m ρ c main_v18 : S50000x1.Idx → EReal)
      = broadcastInDim S50000x1 ![0] bcast_S50000_S50000x1_0 (Cert.ReferenceIdeal.Read.val_main_v17 (F := Ideal) (m ((c : Thread nD τ).loc main_arg1))) := by first_stretch
  rw [e]
  exact broadcastInDim_apply _ bcast_S50000_S50000x1_0 _ (ix2 r (0 : Fin 1)) (ix1 r) (fun a => match a with
    | ⟨0, _⟩ => by show r.val = if (50000 : Nat) = 1 then 0 else r.val; rw [if_neg (by decide)])

/-- The first layer's bias row. -/
theorem s0_bias (q : Fin 256) :
    (V1 m ρ c main_v19 : S1x256.Idx → EReal) (ix2 (0 : Fin 1) q) = ((m ((c : Thread nD τ).loc main_arg3)) : S256.Idx → EReal) (ix1 q) := by
  have e : (V1 m ρ c main_v19 : S1x256.Idx → EReal) = shapeCast S1x256 ((m ((c : Thread nD τ).loc main_arg3)) : S256.Idx → EReal) shapeCasts_S256_S1x256 := by
    first_stretch
  rw [e]
  exact shapeCast_a_1a_apply _ _ (0 : Fin 1) q

/-! ## The first region leaves the reference's first-layer array -/

theorem out0 : W2 m ρ c (Proc.devRef .tc main_v20) = Cert.ReferenceIdeal.Read.val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 6).trans ((final0 (V1 m ρ) c).trans ?_)
  funext i
  obtain ⟨r, q, rfl⟩ : ∃ (r : Fin 50000) (q : Fin 256), i = ix2 r q := ⟨i 0, i 1, eq_ix2 i⟩
  rw [whole0_ix2, Cert.ReferenceIdeal.Rows.layer1_apply]
  unfold node0
  have h0 : V1 m ρ c main_arg0 = (m ((c : Thread nD τ).loc main_arg0)) := w1_arg0 m ρ c
  have h2 : V1 m ρ c main_arg2 = (m ((c : Thread nD τ).loc main_arg2)) := w1_arg2 m ρ c
  have h4 : V1 m ρ c main_arg4 = (m ((c : Thread nD τ).loc main_arg4)) := w1_arg4 m ρ c
  simp only [h0, h2, h4, s0_agg m ρ c, s0_cnt m ρ c, s0_bias m ρ c]

/-! ## What the host operations between the first and second regions leave -/

/-- A buffer neither the first region nor the first stretch writes. -/
theorem w2_src : W2 m ρ c (Proc.devRef .tc main_v1) = Cert.ReferenceIdeal.Read.val_main_v1 (F := Ideal) (m ((c : Thread nD τ).loc main_arg1)) :=
  (W2_of_ne m ρ c main_v1 (by decide)).trans (w1_src m ρ c)
theorem w2_dst : W2 m ρ c (Proc.devRef .tc main_v3) = Cert.ReferenceIdeal.Read.val_main_v3 (F := Ideal) (m ((c : Thread nD τ).loc main_arg1)) :=
  (W2_of_ne m ρ c main_v3 (by decide)).trans (w1_dst m ρ c)
theorem w2_arg5 : W2 m ρ c (Proc.devRef .tc main_arg5) = (m ((c : Thread nD τ).loc main_arg5)) :=
  (W2_of_ne m ρ c main_arg5 (by decide)).trans (w1_arg5 m ρ c)
theorem w2_arg6 : W2 m ρ c (Proc.devRef .tc main_arg6) = (m ((c : Thread nD τ).loc main_arg6)) :=
  (W2_of_ne m ρ c main_arg6 (by decide)).trans (w1_arg6 m ρ c)
theorem w2_arg7 : W2 m ρ c (Proc.devRef .tc main_arg7) = (m ((c : Thread nD τ).loc main_arg7)) :=
  (W2_of_ne m ρ c main_arg7 (by decide)).trans (w1_arg7 m ρ c)
theorem w2_arg8 : W2 m ρ c (Proc.devRef .tc main_arg8) = (m ((c : Thread nD τ).loc main_arg8)) :=
  (W2_of_ne m ρ c main_arg8 (by decide)).trans (w1_arg8 m ρ c)
theorem w2_arg9 : W2 m ρ c (Proc.devRef .tc main_arg9) = (m ((c : Thread nD τ).loc main_arg9)) :=
  (W2_of_ne m ρ c main_arg9 (by decide)).trans (w1_arg9 m ρ c)

/-- The first region reads the neighbour counts and leaves them as they were. -/
theorem w2_cnt : W2 m ρ c (Proc.devRef .tc main_v18) = V1 m ρ c main_v18 :=
  (W2_arr m ρ c 2).trans (((dat0 (V1 m ρ) c).arrAt_in 2 rfl _).trans (A_eq0 (V1 m ρ) c 2))

/-- A buffer the second stretch computes, or leaves alone, as a term of the contents after the first region. -/
macro "second_stretch" : tactic =>
  `(tactic| (show StableHlo.after hostOps1 (W2 _ _ _) (Proc.devRef .tc _) = _; after_results_simp))

theorem s1_h : V3 m ρ c main_v20 = Cert.ReferenceIdeal.Read.val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine Eq.trans ?_ (out0 m ρ c)
  second_stretch <;> rfl

/-- The neighbour sums of the first layer's rows. -/
theorem s1_agg : V3 m ρ c main_v30 = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  second_stretch
  rw [w2_src m ρ c, w2_dst m ρ c, out0 m ρ c]
  rfl

theorem s1_cnt (r : Fin 50000) :
    (V3 m ρ c main_v18 : S50000x1.Idx → EReal) (ix2 r (0 : Fin 1)) = Cert.ReferenceIdeal.Read.val_main_v50 (F := Ideal) (m ((c : Thread nD τ).loc main_arg1)) (ix1 r) := by
  have e : V3 m ρ c main_v18 = V1 m ρ c main_v18 := by
    refine Eq.trans ?_ (w2_cnt m ρ c)
    second_stretch <;> rfl
  rw [e]
  exact s0_cnt m ρ c r

theorem s1_bias (q : Fin 128) :
    (V3 m ρ c main_v31 : S1x128.Idx → EReal) (ix2 (0 : Fin 1) q) = ((m ((c : Thread nD τ).loc main_arg6)) : S128.Idx → EReal) (ix1 q) := by
  have e : (V3 m ρ c main_v31 : S1x128.Idx → EReal) = shapeCast S1x128 ((m ((c : Thread nD τ).loc main_arg6)) : S128.Idx → EReal) shapeCasts_S128_S1x128 := by
    second_stretch
    rw [w2_arg6 m ρ c]
    rfl
  rw [e]
  exact shapeCast_a_1a_apply _ _ (0 : Fin 1) q

theorem s1_arg5 : V3 m ρ c main_arg5 = (m ((c : Thread nD τ).loc main_arg5)) := by
  refine Eq.trans ?_ (w2_arg5 m ρ c)
  second_stretch <;> rfl
theorem s1_arg7 : V3 m ρ c main_arg7 = (m ((c : Thread nD τ).loc main_arg7)) := by
  refine Eq.trans ?_ (w2_arg7 m ρ c)
  second_stretch <;> rfl
theorem w3_arg8 : W3 m ρ c (Proc.devRef .tc main_arg8) = (m ((c : Thread nD τ).loc main_arg8)) := by
  refine Eq.trans ?_ (w2_arg8 m ρ c)
  second_stretch <;> rfl
theorem w3_arg9 : W3 m ρ c (Proc.devRef .tc main_arg9) = (m ((c : Thread nD τ).loc main_arg9)) := by
  refine Eq.trans ?_ (w2_arg9 m ρ c)
  second_stretch <;> rfl

/-! ## The second region leaves the reference's second-layer array -/

theorem out1 : W4 m ρ c (Proc.devRef .tc main_v32) = Cert.ReferenceIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 6).trans ((final1 (V3 m ρ) c).trans ?_)
  funext i
  obtain ⟨r, q, rfl⟩ : ∃ (r : Fin 50000) (q : Fin 128), i = ix2 r q := ⟨i 0, i 1, eq_ix2 i⟩
  rw [whole1_ix2, Cert.ReferenceIdeal.Rows.layer2_apply]
  unfold node1
  simp only [s1_h m ρ c, s1_agg m ρ c, s1_cnt m ρ c, s1_bias m ρ c, s1_arg5 m ρ c, s1_arg7 m ρ c]

/-! ## The last stretch and the third region -/

theorem w4_arg8 : W4 m ρ c (Proc.devRef .tc main_arg8) = (m ((c : Thread nD τ).loc main_arg8)) :=
  (W4_of_ne m ρ c main_arg8 (by decide)).trans (w3_arg8 m ρ c)
theorem w4_arg9 : W4 m ρ c (Proc.devRef .tc main_arg9) = (m ((c : Thread nD τ).loc main_arg9)) :=
  (W4_of_ne m ρ c main_arg9 (by decide)).trans (w3_arg9 m ρ c)

macro "third_stretch" : tactic =>
  `(tactic| (show StableHlo.after hostOps2 (W4 _ _ _) (Proc.devRef .tc _) = _; after_results_simp))

theorem s2_h : V5 m ρ c main_v32 = Cert.ReferenceIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine Eq.trans ?_ (out1 m ρ c)
  third_stretch <;> rfl
theorem s2_w : V5 m ρ c main_arg8 = (m ((c : Thread nD τ).loc main_arg8)) := by
  refine Eq.trans ?_ (w4_arg8 m ρ c)
  third_stretch <;> rfl
theorem s2_bias (q : Fin 2) :
    (V5 m ρ c main_v33 : S1x2.Idx → EReal) (ix2 (0 : Fin 1) q) = ((m ((c : Thread nD τ).loc main_arg9)) : S2.Idx → EReal) (ix1 q) := by
  have e : (V5 m ρ c main_v33 : S1x2.Idx → EReal) = shapeCast S1x2 ((m ((c : Thread nD τ).loc main_arg9)) : S2.Idx → EReal) shapeCasts_S2_S1x2 := by
    third_stretch
    rw [w4_arg9 m ρ c]
    rfl
  rw [e]
  exact shapeCast_a_1a_apply _ _ (0 : Fin 1) q

/-- The result buffer after the last region holds the reference's result, the same function of the arguments. -/
theorem out2 : W6 m ρ c (Proc.devRef .tc main_v34) = Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W6_arr m ρ c 3).trans ((final2 (V5 m ρ) c).trans ?_)
  funext i
  obtain ⟨r, q, rfl⟩ : ∃ (r : Fin 50000) (q : Fin 2), i = ix2 r q := ⟨i 0, i 1, eq_ix2 i⟩
  rw [whole2_ix2, Cert.ReferenceIdeal.Rows.result_apply]
  unfold node2
  simp only [s2_h m ρ c, s2_w m ρ c, s2_bias m ρ c]

/-! ## The run -/

/-- Every weakly fair execution of the idealized kernel terminates with the result buffer at the reference's result
    function of the argument arrays, and the argument arrays as launched. -/
theorem run : θ_run defs (onTc (τ := τ) (main (F := Ideal))) ⟨m, fun _ => 0, ρ⟩ (fun r => ∀ c : Dev nD,
      r.2.mem ((c.tc : Thread nD τ).loc main_v34) = Cert.ReferenceIdeal.Read.val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (out2 m ρ c), (h c).2⟩) (Cert.KernelIdeal.RunValue.run_result m ρ)

end Cert.KernelIdeal.Chain

end
-- ==== Proof.lean ====
/-
  The certificate: the kernel (a two-layer graph convolution with mean aggregation over incoming edges, a linear
  classifier and a softmax, the dense stages tiled over the 50000 nodes in 25 blocks of 2000 rows) computes, over the
  extended reals, the function its reference computes.

  Both programs gather feature rows by source node and add them into the rows of the target nodes with the same host
  operations. Per node r, both then form
      t(c) = (Σ_k (a(r,k) / max(cnt(r), 1)) · Wl(c,k) + b(c)) + Σ_k x(r,k) · Wr(c,k),
  divide the row by max(sqrt(Σ_c t(c)²), tiny), floor the first layer's rows at zero, repeat with the second layer's
  weights on the first layer's rows, and end with the softmax of h(r,·)·Wfc(c,·) + bfc(c). The kernel's matrix products
  contract the second axis of both operands where the reference transposes the weights first; the kernel takes the
  maximum of the neighbour count on a column where the reference takes it on a vector; the reference starts its row
  maximum once more from -inf. None of this changes a value, and no law used needs the inputs to be finite: every node's
  row is the same expression of the same operands on both sides (RowMaps), a block of 2000 rows of the kernel being the
  restriction of the whole array to those rows.

  The frames of the two kernel programs are the generated ones; the reference's frame is its run with the result
  dropped; the ideal pass rewrote nothing, so the kernel's idealization is the kernel's own text read over the reals.
-/
import proofs.«178967_j81664508166317_2_alg».proof.Defs
import proofs.«178967_j81664508166317_2_alg».proof.Proof.Gen.Kernel
import proofs.«178967_j81664508166317_2_alg».proof.Proof.Gen.Kernel.Skeleton
import proofs.«178967_j81664508166317_2_alg».proof.Proof.Gen.Kernel.Launch
import proofs.«178967_j81664508166317_2_alg».proof.Proof.Gen.Kernel.Points
import proofs.«178967_j81664508166317_2_alg».proof.Proof.Gen.Kernel.Frame
import proofs.«178967_j81664508166317_2_alg».proof.Proof.Gen.KernelIdeal
import proofs.«178967_j81664508166317_2_alg».proof.Proof.Gen.KernelIdeal.Skeleton
import proofs.«178967_j81664508166317_2_alg».proof.Proof.Gen.KernelIdeal.Launch
import proofs.«178967_j81664508166317_2_alg».proof.Proof.Gen.KernelIdeal.Points
import proofs.«178967_j81664508166317_2_alg».proof.Proof.Gen.KernelIdeal.Frame
import proofs.«178967_j81664508166317_2_alg».proof.Proof.Gen.ReferenceIdeal
import proofs.«178967_j81664508166317_2_alg».proof.Proof.Gen.Pre_finite_inputs
import proofs.«178967_j81664508166317_2_alg».proof.Proof.RefRun
import proofs.«178967_j81664508166317_2_alg».proof.Proof.RefRead
import proofs.«178967_j81664508166317_2_alg».proof.Proof.HostChain
import Idealize.ShloMosaic.Adequacy
import Idealize.ShloMosaic.Init

noncomputable section

namespace Cert.Proof

open Idealize.ShloMosaic Idealize.SL.Sem

/-- The word-level kernel runs, faults nowhere and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run, the result's value dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the ten arguments both idealized programs end with the same result array: the
    reference's result function of the arguments. -/
theorem algebraic : Cert.algebraic_KernelIdeal_ReferenceIdeal := by
  intro m ρ m' ρ' _ hagree
  refine ⟨_, Cert.KernelIdeal.Chain.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v84_eq, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
